-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x1x1 : Shape := ⟨4, ![1024, 1024, 1, 1]⟩
abbrev S1024x32x8 : Shape := ⟨3, ![1024, 32, 8]⟩
abbrev S_ : Shape := ⟨0, ![]⟩

class Facts : Prop where
  bcast_S_S1024x1024x1x1 : S_.BroadcastsInDim S1024x1024x1x1 (![] : Fin 0 → Fin S1024x1024x1x1.rank)
  reducesTo_S1024x1024x1x1_S_d0_1_2_3 : S1024x1024x1x1.ReducesTo [0, 1, 2, 3] S_
  h_S_ : 0 < S_.numel
  bcast_S_S1024x32x8 : S_.BroadcastsInDim S1024x32x8 (![] : Fin 0 → Fin S1024x32x8.rank)
  reducesTo_S1024x32x8_S_d0_1_2 : S1024x32x8.ReducesTo [0, 1, 2] S_

variable [Facts]

def fn {F : FTy → Type} [FloatOps F] (main_arg0 : FVec F S1024x1024x1x1 .f32) (main_arg1 : FVec F S1024x32x8 .f32) : IVec S_ 1 :=
  let main_v0 : FVec F S1024x1024x1x1 .f32 := Host.absf main_arg0
  let main_cst : FVec F S_ .f32 := constant S_ .f32 0x7F800000#32
  let main_v1 : FVec F S1024x1024x1x1 .f32 := broadcastInDim S1024x1024x1x1 ![] bcast_S_S1024x1024x1x1 main_cst
  let main_v2 : IVec S1024x1024x1x1 1 := cmpf .olt main_v0 main_v1
  let main_c : IVec S_ 1 := constantI S_ 1 1#1
  let main_v3 : IVec S_ 1 := (fun x v => Host.reduce IntOp.andi x v reducesTo_S1024x1024x1x1_S_d0_1_2_3 h_S_) main_v2 main_c
  let main_v4 : FVec F S1024x32x8 .f32 := Host.absf main_arg1
  let main_cst_0 : FVec F S_ .f32 := constant S_ .f32 0x7F800000#32
  let main_v5 : FVec F S1024x32x8 .f32 := broadcastInDim S1024x32x8 ![] bcast_S_S1024x32x8 main_cst_0
  let main_v6 : IVec S1024x32x8 1 := cmpf .olt main_v4 main_v5
  let main_c_1 : IVec S_ 1 := constantI S_ 1 1#1
  let main_v7 : IVec S_ 1 := (fun x v => Host.reduce IntOp.andi x v reducesTo_S1024x32x8_S_d0_1_2 h_S_) main_v6 main_c_1
  let main_v8 : IVec S_ 1 := andi main_v3 main_v7
  main_v8
-- ==== Kernel.lean ====
abbrev S1024x1024x1x1 : Shape := ⟨4, ![1024, 1024, 1, 1]⟩
abbrev S1024x32x8 : Shape := ⟨3, ![1024, 32, 8]⟩
abbrev S1024x1024 : Shape := ⟨2, ![1024, 1024]⟩
abbrev S1024x8x32 : Shape := ⟨3, ![1024, 8, 32]⟩
abbrev S1024x256 : Shape := ⟨2, ![1024, 256]⟩
abbrev S256x1024 : Shape := ⟨2, ![256, 1024]⟩
abbrev S256x256 : Shape := ⟨2, ![256, 256]⟩
abbrev S8x32x1024 : Shape := ⟨3, ![8, 32, 1024]⟩
abbrev S1024x32 : Shape := ⟨2, ![1024, 32]⟩
abbrev S128x8x32 : Shape := ⟨3, ![128, 8, 32]⟩
abbrev S128x32 : Shape := ⟨2, ![128, 32]⟩
abbrev S8x32x128 : Shape := ⟨3, ![8, 32, 128]⟩
abbrev S128x32x128 : Shape := ⟨3, ![128, 32, 128]⟩
abbrev S128x1x32 : Shape := ⟨3, ![128, 1, 32]⟩
abbrev S1x32x128 : Shape := ⟨3, ![1, 32, 128]⟩
abbrev S32x128 : Shape := ⟨2, ![32, 128]⟩
abbrev S128x32x1 : Shape := ⟨3, ![128, 32, 1]⟩
abbrev S1024x32x1x1 : Shape := ⟨4, ![1024, 32, 1, 1]⟩
abbrev S1024x1056x1x1 : Shape := ⟨4, ![1024, 1056, 1, 1]⟩

abbrev nBuf : Space → Nat
  | .hbm => 12
  | .vmem => 12
  | .smem => 0
  | _ => 0

abbrev bufTy : (tb : Table) → Fin (tcTables nBuf tb) → BufTy
  | .hbm, ⟨0, _⟩ => ⟨S1024x1024x1x1, .f32⟩
  | .hbm, ⟨1, _⟩ => ⟨S1024x32x8, .f32⟩
  | .hbm, ⟨2, _⟩ => ⟨S1024x1024, .f32⟩
  | .hbm, ⟨3, _⟩ => ⟨S1024x8x32, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024x8x32, .f32⟩
  | .hbm, ⟨8, _⟩ => ⟨S8x32x1024, .f32⟩
  | .hbm, ⟨9, _⟩ => ⟨S1024x32, .f32⟩
  | .hbm, ⟨10, _⟩ => ⟨S1024x32x1x1, .f32⟩
  | .hbm, ⟨11, _⟩ => ⟨S1024x1056x1x1, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S128x8x32, .f32⟩
  | .local _ .vmem, ⟨8, _⟩ => ⟨S128x8x32, .f32⟩
  | .local _ .vmem, ⟨9, _⟩ => ⟨S8x32x1024, .f32⟩
  | .local _ .vmem, ⟨10, _⟩ => ⟨S128x32, .f32⟩
  | .local _ .vmem, ⟨11, _⟩ => ⟨S128x32, .f32⟩
  | _, _ => ⟨S1024x1024x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1024x1024x1x1_S1024x1024 : S1024x1024x1x1.ShapeCasts S1024x1024
  transposes_S1024x32x8_S1024x8x32_0_2_1 : S1024x32x8.Transposes [0, 2, 1] S1024x8x32
  shapeCasts_S1024x8x32_S1024x256 : S1024x8x32.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S1024x256_S1024x8x32 : S1024x256.ShapeCasts S1024x8x32
  shapeCasts_S256x1024_S8x32x1024 : S256x1024.ShapeCasts S8x32x1024
  inb_S128x8x32_S128x8x32_0_0_0 : ∀ a, (![0, 0, 0] : Fin 3 → Nat) a + S128x8x32.size a ≤ S128x8x32.size a
  h_S128x8x32 : 0 < S128x8x32.numel
  shapeCasts_S128x8x32_S128x8x32 : S128x8x32.ShapeCasts S128x8x32
  inb_S8x32x1024_S8x32x128_0_0_0 : ∀ a, (![0, 0, 0] : Fin 3 → Nat) a + S8x32x128.size a ≤ S8x32x1024.size a
  h_S8x32x128 : 0 < S8x32x128.numel
  shapeCasts_S8x32x128_S8x32x128 : S8x32x128.ShapeCasts S8x32x128
  slices_S128x8x32_o0_0_0_S128x1x32 : S128x8x32.Slices ![0, 0, 0] S128x1x32
  shapeCasts_S128x1x32_S128x32 : S128x1x32.ShapeCasts S128x32
  slices_S8x32x128_o0_0_0_S1x32x128 : S8x32x128.Slices ![0, 0, 0] S1x32x128
  shapeCasts_S1x32x128_S32x128 : S1x32x128.ShapeCasts S32x128
  shapeCasts_S128x32_S128x32x1 : S128x32.ShapeCasts S128x32x1
  shapeCasts_S32x128_S1x32x128 : S32x128.ShapeCasts S1x32x128
  broadcasts_S128x32x1_S128x32x128 : S128x32x1.Broadcasts S128x32x128
  broadcasts_S1x32x128_S128x32x128 : S1x32x128.Broadcasts S128x32x128
  slices_S128x8x32_o0_1_0_S128x1x32 : S128x8x32.Slices ![0, 1, 0] S128x1x32
  slices_S8x32x128_o1_0_0_S1x32x128 : S8x32x128.Slices ![1, 0, 0] S1x32x128
  slices_S128x8x32_o0_2_0_S128x1x32 : S128x8x32.Slices ![0, 2, 0] S128x1x32
  slices_S8x32x128_o2_0_0_S1x32x128 : S8x32x128.Slices ![2, 0, 0] S1x32x128
  slices_S128x8x32_o0_3_0_S128x1x32 : S128x8x32.Slices ![0, 3, 0] S128x1x32
  slices_S8x32x128_o3_0_0_S1x32x128 : S8x32x128.Slices ![3, 0, 0] S1x32x128
  slices_S128x8x32_o0_4_0_S128x1x32 : S128x8x32.Slices ![0, 4, 0] S128x1x32
  slices_S8x32x128_o4_0_0_S1x32x128 : S8x32x128.Slices ![4, 0, 0] S1x32x128
  slices_S128x8x32_o0_5_0_S128x1x32 : S128x8x32.Slices ![0, 5, 0] S128x1x32
  slices_S8x32x128_o5_0_0_S1x32x128 : S8x32x128.Slices ![5, 0, 0] S1x32x128
  slices_S128x8x32_o0_6_0_S128x1x32 : S128x8x32.Slices ![0, 6, 0] S128x1x32
  slices_S8x32x128_o6_0_0_S1x32x128 : S8x32x128.Slices ![6, 0, 0] S1x32x128
  slices_S128x8x32_o0_7_0_S128x1x32 : S128x8x32.Slices ![0, 7, 0] S128x1x32
  slices_S8x32x128_o7_0_0_S1x32x128 : S8x32x128.Slices ![7, 0, 0] S1x32x128
  reduces_S128x32x128_S128x32 : S128x32x128.Reduces [2] S128x32
  inb_S8x32x1024_S8x32x128_0_0_128 : ∀ a, (![0, 0, 128] : Fin 3 → Nat) a + S8x32x128.size a ≤ S8x32x1024.size a
  inb_S8x32x1024_S8x32x128_0_0_256 : ∀ a, (![0, 0, 256] : Fin 3 → Nat) a + S8x32x128.size a ≤ S8x32x1024.size a
  inb_S8x32x1024_S8x32x128_0_0_384 : ∀ a, (![0, 0, 384] : Fin 3 → Nat) a + S8x32x128.size a ≤ S8x32x1024.size a
  inb_S8x32x1024_S8x32x128_0_0_512 : ∀ a, (![0, 0, 512] : Fin 3 → Nat) a + S8x32x128.size a ≤ S8x32x1024.size a
  inb_S8x32x1024_S8x32x128_0_0_640 : ∀ a, (![0, 0, 640] : Fin 3 → Nat) a + S8x32x128.size a ≤ S8x32x1024.size a
  inb_S8x32x1024_S8x32x128_0_0_768 : ∀ a, (![0, 0, 768] : Fin 3 → Nat) a + S8x32x128.size a ≤ S8x32x1024.size a
  inb_S8x32x1024_S8x32x128_0_0_896 : ∀ a, (![0, 0, 896] : Fin 3 → Nat) a + S8x32x128.size a ≤ S8x32x1024.size a
  inb_S128x32_S128x32_0_0 : ∀ a, (![0, 0] : Fin 2 → Nat) a + S128x32.size a ≤ S128x32.size a
  h_S128x32 : 0 < S128x32.numel
  shapeCasts_S1024x32_S1024x32x1x1 : S1024x32.ShapeCasts S1024x32x1x1
  concatenates_S1024x1024x1x1_S1024x32x1x1_S1024x1056x1x1_d1 : Shape.Concatenates [S1024x1024x1x1, S1024x32x1x1] S1024x1056x1x1 1
  dot_S256x1024_S1024x256_S256x256_1_0_0_1_n_n_wf : DotDims.WF S256x1024 S1024x256 S256x256 [1] [0] [0] [1] [] []
  dot_S1024x256_S256x1024_S256x256_0_1_1_0_n_n_wf : DotDims.WF S1024x256 S256x1024 S256x256 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x256.size a
  hwx0_2 : ∀ i : grid0.Coords, EltTy.bits .f32 = 32 ∨ (Rect.block (s := S1024x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x1024.size a
  hwx0_3 : ∀ i : grid0.Coords, EltTy.bits .f32 = 32 ∨ (Rect.block (s := S256x1024) S256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8x32.size a ≤ S1024x8x32.size a
  hwx1_0 : ∀ i : grid1.Coords, EltTy.bits .f32 = 32 ∨ (Rect.block (s := S1024x8x32) S128x8x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x32x1024.size a ≤ S8x32x1024.size a
  hwx1_1 : ∀ i : grid1.Coords, EltTy.bits .f32 = 32 ∨ (Rect.block (s := S8x32x1024) S8x32x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S1024x32.size a
  hwx1_2 : ∀ i : grid1.Coords, EltTy.bits .f32 = 32 ∨ (Rect.block (s := S1024x32) S128x32.size (cc1_transform_2 i) (hinb1_2 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S1024x256_S256x1024_S256x256_0_1_1_0_n_n : DotDims S1024x256 S256x1024 S256x256 where
  lhsContracting := [0]
  rhsContracting := [1]
  lhsNonContracting := [1]
  rhsNonContracting := [0]
  lhsBatch := []
  rhsBatch := []
  wf := dot_S1024x256_S256x1024_S256x256_0_1_1_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S128x8x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8x32x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x1024x1x1 : Shape := ⟨4, ![1024, 1024, 1, 1]⟩
abbrev S1024x32x8 : Shape := ⟨3, ![1024, 32, 8]⟩
abbrev S1024x1024 : Shape := ⟨2, ![1024, 1024]⟩
abbrev S1024x256 : Shape := ⟨2, ![1024, 256]⟩
abbrev S1x1024x32x8 : Shape := ⟨4, ![1, 1024, 32, 8]⟩
abbrev S1024x1x32x8 : Shape := ⟨4, ![1024, 1, 32, 8]⟩
abbrev S1024x1024x32x8 : Shape := ⟨4, ![1024, 1024, 32, 8]⟩
abbrev S_ : Shape := ⟨0, ![]⟩
abbrev S1024x1024x32 : Shape := ⟨3, ![1024, 1024, 32]⟩
abbrev S1024x32 : Shape := ⟨2, ![1024, 32]⟩
abbrev S1024x32x1x1 : Shape := ⟨4, ![1024, 32, 1, 1]⟩
abbrev S1024x1056x1x1 : Shape := ⟨4, ![1024, 1056, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024x1x1, .f32⟩
  | .hbm, ⟨1, _⟩ => ⟨S1024x32x8, .f32⟩
  | .hbm, ⟨2, _⟩ => ⟨S1024x1024, .f32⟩
  | .hbm, ⟨3, _⟩ => ⟨S1024x256, .f32⟩
  | .hbm, ⟨4, _⟩ => ⟨S1024x256, .f32⟩
  | .hbm, ⟨5, _⟩ => ⟨S1024x32x8, .f32⟩
  | .hbm, ⟨6, _⟩ => ⟨S1x1024x32x8, .f32⟩
  | .hbm, ⟨7, _⟩ => ⟨S1024x1x32x8, .f32⟩
  | .hbm, ⟨8, _⟩ => ⟨S1024x1024x32x8, .f32⟩
  | .hbm, ⟨9, _⟩ => ⟨S1024x1024x32x8, .f32⟩
  | .hbm, ⟨10, _⟩ => ⟨S1024x1024x32x8, .f32⟩
  | .hbm, ⟨11, _⟩ => ⟨S1024x1024x32x8, .f32⟩
  | .hbm, ⟨12, _⟩ => ⟨S_, .f32⟩
  | .hbm, ⟨13, _⟩ => ⟨S1024x1024x32, .f32⟩
  | .hbm, ⟨14, _⟩ => ⟨S1024x1024x32, .f32⟩
  | .hbm, ⟨15, _⟩ => ⟨S1024x1024x32, .f32⟩
  | .hbm, ⟨16, _⟩ => ⟨S_, .f32⟩
  | .hbm, ⟨17, _⟩ => ⟨S1024x32, .f32⟩
  | .hbm, ⟨18, _⟩ => ⟨S_, .f32⟩
  | .hbm, ⟨19, _⟩ => ⟨S1024x32, .f32⟩
  | .hbm, ⟨20, _⟩ => ⟨S1024x32, .f32⟩
  | .hbm, ⟨21, _⟩ => ⟨S1024x32x1x1, .f32⟩
  | .hbm, ⟨22, _⟩ => ⟨S1024x1024x1x1, .f32⟩
  | .hbm, ⟨23, _⟩ => ⟨S1024x1056x1x1, .f32⟩
  | _, _ => ⟨S1024x1024x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  shapeCasts_S1024x1024x1x1_S1024x1024 : S1024x1024x1x1.ShapeCasts S1024x1024
  shapeCasts_S1024x32x8_S1024x256 : S1024x32x8.ShapeCasts S1024x256
  shapeCasts_S1024x256_S1024x32x8 : S1024x256.ShapeCasts S1024x32x8
  bcast_S1024x32x8_S1x1024x32x8_1_2_3 : S1024x32x8.BroadcastsInDim S1x1024x32x8 (![1, 2, 3] : Fin 3 → Fin S1x1024x32x8.rank)
  bcast_S1024x32x8_S1024x1x32x8_0_2_3 : S1024x32x8.BroadcastsInDim S1024x1x32x8 (![0, 2, 3] : Fin 3 → Fin S1024x1x32x8.rank)
  bcast_S1x1024x32x8_S1024x1024x32x8_0_1_2_3 : S1x1024x32x8.BroadcastsInDim S1024x1024x32x8 (![0, 1, 2, 3] : Fin 4 → Fin S1024x1024x32x8.rank)
  bcast_S1024x1x32x8_S1024x1024x32x8_0_1_2_3 : S1024x1x32x8.BroadcastsInDim S1024x1024x32x8 (![0, 1, 2, 3] : Fin 4 → Fin S1024x1024x32x8.rank)
  reducesTo_S1024x1024x32x8_S1024x1024x32_d3 : S1024x1024x32x8.ReducesTo [3] S1024x1024x32
  h_S_ : 0 < S_.numel
  reducesTo_S1024x1024x32_S1024x32_d0 : S1024x1024x32.ReducesTo [0] S1024x32
  bcast_S_S1024x32 : S_.BroadcastsInDim S1024x32 (![] : Fin 0 → Fin S1024x32.rank)
  shapeCasts_S1024x32_S1024x32x1x1 : S1024x32.ShapeCasts S1024x32x1x1
  shapeCasts_S1024x1024_S1024x1024x1x1 : S1024x1024.ShapeCasts S1024x1024x1x1
  concatenates_S1024x1024x1x1_S1024x32x1x1_S1024x1056x1x1_d1 : Shape.Concatenates [S1024x1024x1x1, S1024x32x1x1] S1024x1056x1x1 1
  dot_S1024x1024_S1024x256_S1024x256_1_0_0_1_n_n_wf : DotDims.WF S1024x1024 S1024x256 S1024x256 [1] [0] [0] [1] [] []

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

class Facts : Prop extends Facts₀ where

variable [Facts]
-- ==== Proof.ResultRun.lean ====
/-
  The idealized kernel's run with its RESULT named.  @main is five segments: a stretch of host operations (reshape x,
  transpose and reshape T), the pallas_call of the two matrix products, a stretch of two reshapes, the pallas_call of
  the pairwise sums, and a last stretch (reshape, concatenate with x).  Every weakly fair execution goes through the
  five in order, and at the end every unscoped buffer of a core holds the contents the fold through the segments gives
  it: the last boundary's contents `W5`.  Read at the result buffer that is the value of the run; read at the two
  argument buffers it is the launch memory, since nothing writes them.
-/
import proofs.«100939_j85246510891072_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the two arguments as launched. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c)⟩)

end Cert.KernelIdeal.Result

end
-- ==== Proof.LibRank3Layout.lean ====
/-
  Rank-3 layout operations read at an index written by coordinates, and a lane sum of a rank-3 array.

  A pairwise kernel pairs row `i` of one block with lane `l` of another by inserting a unit axis and broadcasting along it:
  a [a, 1, b] slab cast to [a, b] and then to [a, b, 1] and broadcast along the last axis reads, at (i, j, l), the slab at
  (i, 0, j); a [1, b, c] slab cast to [b, c], back to [1, b, c] and broadcast along the first axis reads, at (i, j, l), the
  slab at (0, j, l).  A slice along the leading axis from offset `o` reads at (j, b, e) the source at (o + j, b, e).
  At the ideal instance the sum over the last axis of a [a, b, c] array, read at (i, j), is the sum over `l : Fin c` of
  the array at (i, j, l).
-/
import Idealize.ShloMosaic.Lib.Pipeline.Value
import Idealize.ShloMosaic.Lib.ValueIdx
import Idealize.ShloMosaic.Lib.ValueLayout
import Idealize.ShloMosaic.PureOps.Ideal.Laws

noncomputable section

namespace Rank3Layout

open Idealize.ShloMosaic Idealize.ShloMosaic.ValueIdx

variable {α : Type}

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- `slice3_axis0_apply` with the source coordinate written out. -/
theorem slice3_axis0_eq {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) :
    extractStridedSlice ⟨3, ![m, n1, n2]⟩ ![o, 0, 0] X h (ix3 j b e)
      = X (ix3 ⟨o + j.val, Nat.lt_of_lt_of_le (Nat.add_lt_add_left j.isLt o) (h.2 0)⟩ b e) :=
  slice3_axis0_apply o X h j b e _ rfl

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

/-- At the ideal instance the add reduction of an `[a, b, c]` array over its last axis, from the zero word, read at
    `(i, j)`, is the sum over `l : Fin c` of the array at `(i, j, l)`. -/
theorem laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ l : Fin c, src (ix3 i j l) := by
  refine (Ideal.multiReduction_add_single src 0x00000000#32 h hφ hacc (ix2 i j)).trans ?_
  refine Finset.sum_congr rfl fun l _ => congrArg src ?_
  funext ax
  match ax with
  | ⟨0, _⟩ => rfl
  | ⟨1, _⟩ => rfl
  | ⟨2, _⟩ => rfl

/-- The same, with the accumulator's side condition in the form a printed body carries it. -/
theorem laneSum_neutral_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ l : Fin c, src (ix3 i j l) :=
  laneSum_apply src h hφ hacc i j

/-- The same once more, in the form a rewriting pass meets in a printed body: the format's admissibility as the
    disjunction it unfolds to, and the axis list typed over `Fin 3`, the rank computed. -/
theorem laneSum_printed_apply {a b c : ℕ} (src : FVec Ideal ⟨3, ![a, b, c]⟩ .f32)
    (h : (⟨3, ![a, b, c]⟩ : Shape).Reduces ([2] : List (Fin 3)) ⟨2, ![a, b]⟩) (hφ : FTy.f32 = FTy.f32 ∨ FTy.f32 = FTy.bf16)
    (hacc : (0x00000000#32 : BitVec 32) = 0x00000000#32) (i : Fin a) (j : Fin b) :
    multiReduction .add ([2] : List (Fin 3)) ⟨2, ![a, b]⟩ src 0x00000000#32 h hφ hacc (ix2 i j) = ∑ l : Fin c, src (ix3 i j l) :=
  laneSum_apply src h hφ hacc i j

end Rank3Layout

end
-- ==== Proof.LibBlockSum.lean ====
import Mathlib.Algebra.BigOperators.Fin

/-
  Summing a finite sequence block by block.

  A sequence of a * b terms, cut into a consecutive blocks of b terms each, has the same sum whether one adds the
  terms in order or first adds each block and then adds the block sums: the term at place q of block c is the term at
  position c * b + q, and every position below a * b is of that form exactly once.
-/

open scoped BigOperators

namespace Cert.BlockSum

/-- Place q of block c, among a blocks of b places, is a position below a * b. -/
theorem pos_lt {a b : Nat} (c : Fin a) (q : Fin b) : c.val * b + q.val < a * b := by
  have hc : c.val + 1 ≤ a := c.isLt
  have hq : q.val < b := q.isLt
  calc c.val * b + q.val < c.val * b + b := Nat.add_lt_add_left hq _
    _ = (c.val + 1) * b := (Nat.succ_mul c.val b).symm
    _ ≤ a * b := Nat.mul_le_mul_right b hc

/-- The sum over the blocks of the sums inside each block is the sum of the whole sequence: for g defined on the
    positions below a * b, the sum over c < a of the sum over q < b of g (c * b + q) equals the sum of g. -/
theorem sum_blocks {M : Type*} [AddCommMonoid M] (a b : Nat) (g : Fin (a * b) → M) :
    ∑ c : Fin a, ∑ q : Fin b, g ⟨c.val * b + q.val, pos_lt c q⟩ = ∑ k : Fin (a * b), g k := by
  rw [← Equiv.sum_comp finProdFinEquiv g, Fintype.sum_prod_type]
  refine Finset.sum_congr rfl fun c _ => Finset.sum_congr rfl fun q _ => ?_
  refine congrArg g (Fin.ext ?_)
  show c.val * b + q.val = q.val + b * c.val
  rw [Nat.mul_comm, Nat.add_comm]

/-- Place q of block c, among 16 blocks of 512 places, is a position below 8192. -/
theorem pos_lt_16_512 (c : Fin 16) (q : Fin 512) : c.val * 512 + q.val < 8192 := by
  have := c.isLt
  have := q.isLt
  omega

/-- Sixteen blocks of 512: for g defined on the positions below 8192, the sum over c < 16 of the sum over q < 512 of
    g (c * 512 + q) equals the sum of g. The bound on the position is an argument, so that the statement fits
    whatever proof of the bound the other side carries. -/
theorem sum_blocks_16_512 {M : Type*} [AddCommMonoid M] (g : Fin 8192 → M)
    (h : ∀ (c : Fin 16) (q : Fin 512), c.val * 512 + q.val < 8192) :
    ∑ c : Fin 16, ∑ q : Fin 512, g ⟨c.val * 512 + q.val, h c q⟩ = ∑ k : Fin 8192, g k :=
  sum_blocks 16 512 g

/-- The same, with the bound proved once and for all. -/
theorem sum_blocks_16_512' {M : Type*} [AddCommMonoid M] (g : Fin 8192 → M) :
    ∑ c : Fin 16, ∑ q : Fin 512, g ⟨c.val * 512 + q.val, pos_lt_16_512 c q⟩ = ∑ k : Fin 8192, g k :=
  sum_blocks_16_512 g pos_lt_16_512

end Cert.BlockSum
-- ==== Proof.PairSpec.lean ====
/-
  The pairwise stage as a function of its two operands, in two arrangements.

  For A of shape [R, 8, 32] (R query rows, 8 components, 32 features) and B of shape [8, 32, 1024] (the same components and
  features of all 1024 key rows, the key row last), the stage's entry at (i, o) is

      (sum over key rows j of exp (−(sum over k of |A(i, k, o) − B(k, o, j)|))) − 1 .

  The kernel's body computes it key rows 128 at a time: within a block of 128 lanes it adds the eight absolute
  differences one after the other onto a zero, negates by subtracting from zero, exponentiates, sums the 128 lanes, and
  adds the eight block sums one after the other onto a zero.  Addition on the extended reals is commutative and
  associative and zero is neutral, 0 − x is −x, and the key rows below 1024 are the places c · 128 + l of the eight blocks
  exactly once each; so the two arrangements agree, whatever the entries are (no finiteness is used).
-/
import Idealize.ShloMosaic.PureOps.Ideal.Laws
import Idealize.ShloMosaic.Lib.ValueIdx
import proofs.«100939_j85246510891072_2_alg».proof.Proof.LibBlockSum

noncomputable section

namespace Cert.KernelIdeal.Pairwise

open Idealize.ShloMosaic Idealize.ShloMosaic.ValueIdx

/-- The f32 words 0.0 and 1.0 as extended reals. Only the zero word is ever evaluated. -/
abbrev zeroW : EReal := FloatOps.ofBits (F := Ideal) .f32 0x00000000#32
abbrev oneW : EReal := FloatOps.ofBits (F := Ideal) .f32 0x3F800000#32

theorem zeroW_eq : zeroW = 0 := Ideal.ofBits_zero_f32

/-- Eight terms added one after the other onto the zero word. -/
def fold8 (a : Fin 8 → EReal) : EReal :=
  zeroW + a ⟨0, by decide⟩ + a ⟨1, by decide⟩ + a ⟨2, by decide⟩ + a ⟨3, by decide⟩ + a ⟨4, by decide⟩ + a ⟨5, by decide⟩ + a ⟨6, by decide⟩ + a ⟨7, by decide⟩

/-- That is their sum. -/
theorem fold8_eq_sum (a : Fin 8 → EReal) : fold8 a = ∑ k : Fin 8, a k := by
  unfold fold8
  rw [zeroW_eq, zero_add, Fin.sum_univ_eight]
  rfl

/-- Lane `l` of block `c`, among eight blocks of 128 lanes, is key row `c · 128 + l`. -/
def lane (c : Fin 8) (l : Fin 128) : Fin 1024 := ⟨c.val * 128 + l.val, by have := c.isLt; have := l.isLt; omega⟩

/-- |A(i, k, o) − B(k, o, j)|. -/
def gap {R : ℕ} (A : (⟨3, ![R, 8, 32]⟩ : Shape).Idx → EReal) (B : (⟨3, ![8, 32, 1024]⟩ : Shape).Idx → EReal)
    (i : Fin R) (o : Fin 32) (j : Fin 1024) (k : Fin 8) : EReal :=
  FloatOps.absf (F := Ideal) (φ := .f32) (A (ix3 i k o) - B (ix3 k o j))

/-- The stage's entry at (i, o). -/
def row {R : ℕ} (A : (⟨3, ![R, 8, 32]⟩ : Shape).Idx → EReal) (B : (⟨3, ![8, 32, 1024]⟩ : Shape).Idx → EReal)
    (i : Fin R) (o : Fin 32) : EReal :=
  (∑ j : Fin 1024, FloatOps.exp (F := Ideal) (φ := .f32) (-(∑ k : Fin 8, gap A B i o j k))) - oneW

/-- The same entry as the body computes it, block of lanes by block of lanes. -/
def rowChunks {R : ℕ} (A : (⟨3, ![R, 8, 32]⟩ : Shape).Idx → EReal) (B : (⟨3, ![8, 32, 1024]⟩ : Shape).Idx → EReal)
    (i : Fin R) (o : Fin 32) : EReal :=
  fold8 (fun c => ∑ l : Fin 128, FloatOps.exp (F := Ideal) (φ := .f32) (zeroW - fold8 (fun k => gap A B i o (lane c l) k))) - oneW

/-- The same again, with the key operand given block by block: `Bc c` is the [8, 32, 128] block of lanes the body loads
    for block `c`. -/
def rowBlocks {R : ℕ} (A : (⟨3, ![R, 8, 32]⟩ : Shape).Idx → EReal) (Bc : Fin 8 → (⟨3, ![8, 32, 128]⟩ : Shape).Idx → EReal)
    (i : Fin R) (o : Fin 32) : EReal :=
  fold8 (fun c => ∑ l : Fin 128, FloatOps.exp (F := Ideal) (φ := .f32)
    (zeroW - fold8 (fun k => FloatOps.absf (F := Ideal) (φ := .f32) (A (ix3 i k o) - Bc c (ix3 k o l))))) - oneW

/-- When block `c` holds, at lane `l`, the key operand at key row `c · 128 + l`, the block-by-block form is the chunked one. -/
theorem rowBlocks_eq_rowChunks {R : ℕ} (A : (⟨3, ![R, 8, 32]⟩ : Shape).Idx → EReal) (B : (⟨3, ![8, 32, 1024]⟩ : Shape).Idx → EReal)
    (Bc : Fin 8 → (⟨3, ![8, 32, 128]⟩ : Shape).Idx → EReal)
    (h : ∀ (c : Fin 8) (k : Fin 8) (o : Fin 32) (l : Fin 128), Bc c (ix3 k o l) = B (ix3 k o (lane c l)))
    (i : Fin R) (o : Fin 32) : rowBlocks A Bc i o = rowChunks A B i o := by
  unfold rowBlocks rowChunks gap
  simp only [h]

/-- The two arrangements agree. -/
theorem rowChunks_eq_row {R : ℕ} (A : (⟨3, ![R, 8, 32]⟩ : Shape).Idx → EReal) (B : (⟨3, ![8, 32, 1024]⟩ : Shape).Idx → EReal)
    (i : Fin R) (o : Fin 32) : rowChunks A B i o = row A B i o := by
  unfold rowChunks row
  rw [fold8_eq_sum]
  refine congrArg (· - oneW) ?_
  have hterm : ∀ (c : Fin 8) (l : Fin 128),
      FloatOps.exp (F := Ideal) (φ := .f32) (zeroW - fold8 (fun k => gap A B i o (lane c l) k))
        = FloatOps.exp (F := Ideal) (φ := .f32) (-(∑ k : Fin 8, gap A B i o (lane c l) k)) := by
    intro c l
    rw [fold8_eq_sum, zeroW_eq, zero_sub]
  simp only [hterm]
  exact Cert.BlockSum.sum_blocks 8 128
    (fun j : Fin (8 * 128) => FloatOps.exp (F := Ideal) (φ := .f32) (-(∑ k : Fin 8, gap A B i o j k)))

end Cert.KernelIdeal.Pairwise

end
-- ==== Proof.PairBody.lean ====
/-
  What the pairwise kernel's body leaves in its output block, entry by entry.

  The body holds a query block x0 of shape [128, 8, 32] and the whole key operand x1 of shape [8, 32, 1024].  For each of
  eight blocks of 128 lanes it loads x1's lanes c · 128 … c · 128 + 127, and for k = 0 … 7 it takes row k of the query
  block (a [128, 1, 32] slab, cast to [128, 32, 1] and broadcast along the lanes) and row k of the loaded lanes (a
  [1, 32, 128] slab broadcast along the query rows), subtracts, takes absolute values and adds onto a zero; it negates by
  subtracting from zero, exponentiates, sums the 128 lanes and adds the block's sum onto a running zero; at the end it
  subtracts the word 1.0 and stores.  Read at (p, o), every slice, cast and broadcast lands on one entry of x0 or of the
  loaded lanes, so the stored entry is the block-by-block form of the specification, and hence its plain form.
-/
import proofs.«100939_j85246510891072_2_alg».proof.Proof.Gen.KernelIdeal.Frame
import proofs.«100939_j85246510891072_2_alg».proof.Proof.LibRank3Layout
import proofs.«100939_j85246510891072_2_alg».proof.Proof.PairSpec
import Idealize.ShloMosaic.Lib.ValueLayout

set_option maxRecDepth 16384

noncomputable section

namespace Cert.KernelIdeal.PairBody

open Cert.KernelIdeal Cert.KernelIdeal.Gen Idealize.ShloMosaic Idealize.ShloMosaic.ValueIdx Rank3Layout

/-- Absolute value and exponential of an array are taken entry by entry. -/
theorem absf_apply {s : Shape} {φ : FTy} (a : FVec Ideal s φ) (i : s.Idx) : absf a i = FloatOps.absf (a i) := rfl
theorem exp_apply {s : Shape} {φ : FTy} (a : FVec Ideal s φ) (i : s.Idx) : exp a i = FloatOps.exp (a i) := rfl

theorem zeros3 : (![0, 0, 0] : Fin 3 → Nat) = fun _ => 0 := funext fun a => by fin_cases a <;> rfl
theorem zeros2 : (![0, 0] : Fin 2 → Nat) = fun _ => 0 := funext fun a => by fin_cases a <;> rfl

/-- A load of 128 lanes from lane `off` of the key operand reads, at (k, o, l), the operand at (k, o, off + l). -/
theorem ld_lanes (x1 : Vec Ideal S8x32x1024 .f32) (off : Nat)
    (inb : ∀ a, (![0, 0, off] : Fin 3 → Nat) a + S8x32x128.size a ≤ S8x32x1024.size a) (k : Fin 8) (o : Fin 32) (l : Fin 128)
    (j : Fin 1024) (hj : j.val = off + l.val) :
    View.ld x1 (Rect.unit (s := S8x32x1024) ![0, 0, off] S8x32x128.size inb) (ix3 k o l) = x1 (ix3 k o j) := by
  refine congrArg x1 (funext fun a => Fin.ext ?_)
  match a with
  | ⟨0, _⟩ => show 0 + 1 * k.val = k.val; omega
  | ⟨1, _⟩ => show 0 + 1 * o.val = o.val; omega
  | ⟨2, _⟩ => show off + 1 * l.val = j.val; omega

/-- The eight blocks of lanes the body loads from the key operand, in order. -/
def lanesOf (x1 : Vec Ideal S8x32x1024 .f32) : Fin 8 → (⟨3, ![8, 32, 128]⟩ : Shape).Idx → EReal
  | ⟨0, _⟩ => View.ld x1 r1_1
  | ⟨1, _⟩ => View.ld x1 r1_2
  | ⟨2, _⟩ => View.ld x1 r1_3
  | ⟨3, _⟩ => View.ld x1 r1_4
  | ⟨4, _⟩ => View.ld x1 r1_5
  | ⟨5, _⟩ => View.ld x1 r1_6
  | ⟨6, _⟩ => View.ld x1 r1_7
  | ⟨7, _⟩ => View.ld x1 r1_8
  | ⟨_ + 8, h⟩ => absurd h (by omega)

/-- Block `c` holds, at lane `l`, the key operand at key row `c · 128 + l`. -/
theorem lanesOf_apply (x1 : Vec Ideal S8x32x1024 .f32) (c : Fin 8) (k : Fin 8) (o : Fin 32) (l : Fin 128) :
    lanesOf x1 c (ix3 k o l) = x1 (ix3 k o (Pairwise.lane c l)) := by
  match c with
  | ⟨0, _⟩ => exact ld_lanes x1 0 _ k o l _ rfl
  | ⟨1, _⟩ => exact ld_lanes x1 128 _ k o l _ rfl
  | ⟨2, _⟩ => exact ld_lanes x1 256 _ k o l _ rfl
  | ⟨3, _⟩ => exact ld_lanes x1 384 _ k o l _ rfl
  | ⟨4, _⟩ => exact ld_lanes x1 512 _ k o l _ rfl
  | ⟨5, _⟩ => exact ld_lanes x1 640 _ k o l _ rfl
  | ⟨6, _⟩ => exact ld_lanes x1 768 _ k o l _ rfl
  | ⟨7, _⟩ => exact ld_lanes x1 896 _ k o l _ rfl
  | ⟨_ + 8, h⟩ => exact absurd h (by omega)

/-- The stored entry at (p, o), block of lanes by block of lanes. -/
theorem body_blocks (x0 : Vec Ideal S128x8x32 .f32) (x1 : Vec Ideal S8x32x1024 .f32) (p : Fin 128) (o : Fin 32) :
    out1_2 x0 x1 (ix2 p o) = Pairwise.rowBlocks x0 (lanesOf x1) p o := by
  unfold out1_2
  rw [View.canon_unit_zero zeros2]
  simp only [View.ld_unit_zero (S := S128x8x32) zeros3]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, shapeCast_self, addf_apply, subf_apply, absf_apply, exp_apply, broadcast_apply,
    laneSum_printed_apply, broadcastTo_ab1_abc_apply, broadcastTo_1bc_abc_apply, shapeCast_ab_ab1_apply, shapeCast_a1b_ab_apply,
    shapeCast_1ab_ab_apply, shapeCast_ab_1ab_apply, slice3_axis1_eq, slice3_axis0_eq]
  rfl

/-- The stored entry at (p, o) is the specification's entry of the query block against the key operand. -/
theorem body_apply (x0 : Vec Ideal S128x8x32 .f32) (x1 : Vec Ideal S8x32x1024 .f32) (p : Fin 128) (o : Fin 32) :
    out1_2 x0 x1 (ix2 p o) = Pairwise.row x0 x1 p o :=
  (body_blocks x0 x1 p o).trans
    ((Pairwise.rowBlocks_eq_rowChunks x0 x1 (lanesOf x1) (lanesOf_apply x1) p o).trans (Pairwise.rowChunks_eq_row x0 x1 p o))

end Cert.KernelIdeal.PairBody

end
-- ==== Proof.PairValue.lean ====
/-
  The array the second pipelined kernel writes, read entry by entry.

  The kernel walks eight grid points.  At point t it holds query rows 128·t … 128·t + 127 (a [128, 8, 32] block of the
  [1024, 8, 32] query array) and the whole [8, 32, 1024] key array, and writes a [128, 32] block to rows
  128·t … 128·t + 127 of the [1024, 32] result.  Entry (p, o) of the block it writes is the pairwise stage's entry of
  its two blocks at (p, o); that entry reads the query block only in row p, which is row 128·t + p of the query array,
  and the key block everywhere, which is the key array.  So it is the stage's entry of the two arrays at
  (128·t + p, o), the very place of the result it is written to.  The eight row blocks fill the result, so after the
  last point the result is the pairwise stage of the two arrays at every index.
-/
import proofs.«100939_j85246510891072_2_alg».proof.Proof.Gen.KernelIdeal.Frame
import proofs.«100939_j85246510891072_2_alg».proof.Proof.PairSpec
import Idealize.ShloMosaic.Lib.Pipeline.Value
import Idealize.ShloMosaic.Lib.ValueIdx

set_option maxRecDepth 16384

noncomputable section

namespace Cert.KernelIdeal.PairValue

open Cert.KernelIdeal Cert.KernelIdeal.Gen Idealize.ShloMosaic Idealize.ShloMosaic.TcCoe Idealize.SL.Sem
open Idealize.ShloMosaic.ValueIdx
open Idealize.ShloMosaic.Pipeline (Dat)

/-! ## Where the blocks sit

At grid point t the query block and the result's block are at block row t; the key array's one block never moves. -/

/-- The index maps at every grid point, decided over the eight points. -/
theorem blockIndex_facts : ∀ t : Fin cfg1.N, win1_0.index t (0 : Fin 3) = t.val ∧ win1_0.index t (1 : Fin 3) = 0
    ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-! ## The operand blocks, read off the operands

A block's entry sits in its array, on each axis, at block index × block extent + its coordinate inside the block. -/

/-- Row p of the query block at point t is row 128·t + p of the query array. -/
theorem queryBlock_apply (c : Dev nD) (t : Fin cfg1.N) (p : Fin 128) (k : Fin 8) (o : Fin 32) (n : Fin 1024)
    (hn : n.val = t.val * 128 + p.val) :
    (iblk1 (F := Ideal) V c 0 t : Vec Ideal S128x8x32 .f32) (ix3 p k o)
      = (V c main_v4 : S1024x8x32.Idx → EReal) (ix3 n k o) := by
  obtain ⟨e0, e1, e2, -⟩ := blockIndex_facts t
  unfold iblk1
  rw [View.read_apply]
  show V c main_v4 _ = V c main_v4 _
  congr 1
  funext a
  apply Fin.ext
  match a with
  | ⟨0, _⟩ => show win1_0.index t (0 : Fin 3) * 128 + 1 * p.val = n.val; rw [e0, hn]; omega
  | ⟨1, _⟩ => show win1_0.index t (1 : Fin 3) * 8 + 1 * k.val = k.val; rw [e1]; omega
  | ⟨2, _⟩ => show win1_0.index t (2 : Fin 3) * 32 + 1 * o.val = o.val; rw [e2]; omega

/-- The key array's one block is the key array at every point. -/
theorem keyBlock_apply (c : Dev nD) (t : Fin cfg1.N) (k : Fin 8) (o : Fin 32) (j : Fin 1024) :
    (iblk1 (F := Ideal) V c 1 t : Vec Ideal S8x32x1024 .f32) (ix3 k o j)
      = (V c main_v5 : S8x32x1024.Idx → EReal) (ix3 k o j) := by
  obtain ⟨-, -, -, e3, e4, e5, -⟩ := blockIndex_facts t
  unfold iblk1
  rw [View.read_apply]
  show V c main_v5 _ = V c main_v5 _
  congr 1
  funext a
  apply Fin.ext
  match a with
  | ⟨0, _⟩ => show win1_1.index t (0 : Fin 3) * 8 + 1 * k.val = k.val; rw [e3]; omega
  | ⟨1, _⟩ => show win1_1.index t (1 : Fin 3) * 32 + 1 * o.val = o.val; rw [e4]; omega
  | ⟨2, _⟩ => show win1_1.index t (2 : Fin 3) * 1024 + 1 * j.val = j.val; rw [e5]; omega

/-! ## One entry of what a point computes

The stage's entry at (p, o) reads its first operand in row p only.  So for any block whose row p is row n of a query
array, against equal key operands, the block's entry at (p, o) is the array's entry at (n, o): the two expressions
agree term by term under both sums. -/

theorem row_of_blocks (X : S1024x8x32.Idx → EReal) (B : S8x32x1024.Idx → EReal)
    (x0 : Vec Ideal S128x8x32 .f32) (x1 : Vec Ideal S8x32x1024 .f32) (p : Fin 128) (o : Fin 32) (n : Fin 1024)
    (h0 : ∀ k : Fin 8, x0 (ix3 p k o) = X (ix3 n k o))
    (h1 : ∀ (k : Fin 8) (j : Fin 1024), x1 (ix3 k o j) = B (ix3 k o j)) :
    Pairwise.row x0 x1 p o = Pairwise.row X B n o := by
  unfold Pairwise.row Pairwise.gap
  refine congrArg (· - Pairwise.oneW) (Finset.sum_congr rfl fun j _ => ?_)
  refine congrArg (fun s => FloatOps.exp (F := Ideal) (φ := .f32) (-s)) (Finset.sum_congr rfl fun k _ => ?_)
  rw [h0 k, h1 k j]

/-! ## What each point writes back -/

/-- Point t writes rows 128·t … 128·t + 127 of the pairwise stage of the two arrays, given that the body's block is
    the pairwise stage of its two blocks. -/
theorem flushed_pairs
    (hbody : ∀ (x0 : Vec Ideal S128x8x32 .f32) (x1 : Vec Ideal S8x32x1024 .f32) (p : Fin 128) (o : Fin 32),
      out1_2 x0 x1 (ix2 p o) = Pairwise.row x0 x1 p o)
    (c : Dev nD) (t : Fin cfg1.N) :
    (dat1 (F := Ideal) V c).flushed 2 t = ((cfg1.win 2).blk t).view.read (Elt Ideal)
      (fun i => Pairwise.row (V c main_v4) (V c main_v5) (i 0) (i 1)) := by
  show (cfg1.win 2).cut (grid1.coords t) ((dat1 V c).after 2 t) = _
  rw [after1_2]
  funext j
  rw [View.read_apply]
  have hN : grid1.N = 8 := N_1
  have ht : t.val < grid1.N := t.isLt
  have hj0 : (j 0).val < 128 := (j 0).isLt
  have hj1 : (j 1).val < 32 := (j 1).isLt
  obtain ⟨-, -, -, -, -, -, e6, e7⟩ := blockIndex_facts t
  have hy : ((win1 2).xinj (grid1.coords t) j : S128x32.Idx) = ix2 (⟨(j 0).val, hj0⟩ : Fin 128) (⟨(j 1).val, hj1⟩ : Fin 32) :=
    funext fun a => by match a with | ⟨0, _⟩ => rfl | ⟨1, _⟩ => rfl
  dsimp only [Pipeline.Window.cut]
  rw [hy]
  refine (hbody (iblk1 V c 0 t) (iblk1 V c 1 t) ⟨(j 0).val, hj0⟩ ⟨(j 1).val, hj1⟩).trans ?_
  refine (row_of_blocks (V c main_v4) (V c main_v5) (iblk1 V c 0 t) (iblk1 V c 1 t) ⟨(j 0).val, hj0⟩ ⟨(j 1).val, hj1⟩
    ⟨t.val * 128 + (j 0).val, by omega⟩ (fun k => queryBlock_apply V c t _ k _ _ rfl)
    (fun k j' => keyBlock_apply V c t k _ j')).trans ?_
  refine (congrArg₂ (Pairwise.row (V c main_v4) (V c main_v5)) ?_ ?_).trans (cast_eq _ _).symm
  · apply Fin.ext
    show t.val * 128 + (j 0).val = win1_2.index t (0 : Fin 2) * 128 + 1 * (j 0).val
    rw [e6]; omega
  · apply Fin.ext
    show (j 1).val = win1_2.index t (1 : Fin 2) * 32 + 1 * (j 1).val
    rw [e7]; omega

/-! ## The blocks fill the result -/

/-- An index of the result is in point t's block iff each coordinate is in the block's range on its axis. -/
theorem mem_pairsBlock (t : Fin cfg1.N) (i : S1024x32.Idx) :
    i ∈ ((cfg1.win 2).blk t).view.set ↔ ∀ a : Fin 2, win1_2.index t a * S128x32.size a ≤ (i a).val
      ∧ (i a).val < win1_2.index t a * S128x32.size a + S128x32.size a := by
  show i ∈ ((View.whole main_v6).slice (win1_2.rect t)).set ↔ _
  rw [View.set_slice_whole, Rect.mem_set_unit]
  exact Iff.rfl

/-- Row r of the result is written by point r / 128. -/
theorem pairs_cover (i : S1024x32.Idx) :
    ∃ t : Fin cfg1.N, (cfg1.win 2).flush t = true ∧ i ∈ ((cfg1.win 2).blk t).view.set := by
  have hN : grid1.N = 8 := N_1
  have hi0 : (i 0).val < 1024 := (i 0).isLt
  have hi1 : (i 1).val < 32 := (i 1).isLt
  obtain ⟨t, ht⟩ : ∃ t : Fin cfg1.N, t.val = (i 0).val / 128 :=
    ⟨⟨(i 0).val / 128, by show (i 0).val / 128 < grid1.N; omega⟩, rfl⟩
  obtain ⟨-, -, -, -, -, -, e6, e7⟩ := blockIndex_facts t
  refine ⟨t, flush1_2 t, ?_⟩
  rw [mem_pairsBlock]
  intro a
  match a with
  | ⟨0, _⟩ =>
    show win1_2.index t (0 : Fin 2) * 128 ≤ (i 0).val ∧ (i 0).val < win1_2.index t (0 : Fin 2) * 128 + 128
    rw [e6, ht]; omega
  | ⟨1, _⟩ =>
    show win1_2.index t (1 : Fin 2) * 32 ≤ (i 1).val ∧ (i 1).val < win1_2.index t (1 : Fin 2) * 32 + 32
    rw [e7]; omega

/-! ## The result after the last point -/

/-- The result is the pairwise stage of the query and key arrays, entry by entry, given that the body's block is the
    pairwise stage of its two blocks. -/
theorem out_pairs
    (hbody : ∀ (x0 : Vec Ideal S128x8x32 .f32) (x1 : Vec Ideal S8x32x1024 .f32) (p : Fin 128) (o : Fin 32),
      out1_2 x0 x1 (ix2 p o) = Pairwise.row x0 x1 p o)
    (c : Dev nD) : (dat1 (F := Ideal) V c).arrAt 2 cfg1.N
    = fun i => Pairwise.row (V c main_v4) (V c main_v5) (i 0) (i 1) :=
  (dat1 (F := Ideal) V c).arrAt_eq_of_cover 2 _ (fun t _ => flushed_pairs V hbody c t) pairs_cover

end Cert.KernelIdeal.PairValue

end
-- ==== Proof.Boundaries.lean ====
/-
  The contents of the buffers at the boundaries between @main's five segments, one buffer at a time.

  Before the first pallas_call the host writes xf = x reshaped to [1024, 1024] and Tf = T with its last two axes swapped,
  reshaped to [1024, 256].  The first pallas_call leaves its two outputs at what its write-backs fold to.  The host then
  reshapes them to [1024, 8, 32] and [8, 32, 1024].  The second pallas_call leaves its output likewise, and the host's
  last stretch reshapes it to [1024, 32, 1, 1] and joins it to x along axis 1.  Nothing ever writes x.
-/
import proofs.«100939_j85246510891072_2_alg».proof.Proof.Gen.KernelIdeal.Frame

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first pallas_call finds xf, the reshape of x, in its first operand. -/
theorem entry0_x (c : Dev nD) :
    V1 m ρ c main_v0 = shapeCast S1024x1024 (m ((c.tc : Thread nD τ).loc main_arg0)) shapeCasts_S1024x1024x1x1_S1024x1024 := by
  show StableHlo.after hostOps0 (W0 m ρ c) (Proc.devRef .tc main_v0) = _
  after_results
  rfl

/-- The first pallas_call finds Tf, T transposed on its last two axes and reshaped, in its second operand. -/
theorem entry0_t (c : Dev nD) :
    V1 m ρ c main_v2 = shapeCast S1024x256 (transpose S1024x8x32 [0, 2, 1] (m ((c.tc : Thread nD τ).loc main_arg1)) transposes_S1024x32x8_S1024x8x32_0_2_1) shapeCasts_S1024x8x32_S1024x256 := by
  show StableHlo.after hostOps0 (W0 m ρ c) (Proc.devRef .tc main_v2) = _
  after_results
  rfl

/-- The second pallas_call finds, in its first operand, the first one's first output reshaped to [1024, 8, 32]. -/
theorem entry1_i (c : Dev nD) :
    V3 m ρ c main_v4 = shapeCast S1024x8x32 ((dat0 (V1 m ρ) c).arrAt 2 cfg0.N) shapeCasts_S1024x256_S1024x8x32 := by
  show StableHlo.after hostOps1 (W2 m ρ c) (Proc.devRef .tc main_v4) = _
  after_results
  exact congrArg (shapeCast S1024x8x32 · shapeCasts_S1024x256_S1024x8x32) (W2_arr m ρ c 2)

/-- The second pallas_call finds, in its second operand, the first one's second output reshaped to [8, 32, 1024]. -/
theorem entry1_t (c : Dev nD) :
    V3 m ρ c main_v5 = shapeCast S8x32x1024 ((dat0 (V1 m ρ) c).arrAt 3 cfg0.N) shapeCasts_S256x1024_S8x32x1024 := by
  show StableHlo.after hostOps1 (W2 m ρ c) (Proc.devRef .tc main_v5) = _
  after_results
  exact congrArg (shapeCast S8x32x1024 · shapeCasts_S256x1024_S8x32x1024) (W2_arr m ρ c 3)

/-- x is still what was launched when the last stretch of host operations reads it. -/
theorem x_kept (c : Dev nD) : W4 m ρ c (Proc.devRef .tc main_arg0) = m ((c.tc : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by
          show StableHlo.after hostOps1 (W2 m ρ c) (Proc.devRef .tc main_arg0) = _
          after_results
    _ = W1 m ρ c (Proc.devRef .tc main_arg0) := W2_of_ne m ρ c main_arg0 (by decide)
    _ = m ((c.tc : Thread nD τ).loc main_arg0) := by
          show StableHlo.after hostOps0 (W0 m ρ c) (Proc.devRef .tc main_arg0) = _
          after_results

/-- The result: x joined along axis 1 with the second pallas_call's output reshaped to [1024, 32, 1, 1]. -/
theorem result (c : Dev nD) :
    W5 m ρ c (Proc.devRef .tc main_v8)
      = concatenate S1024x1056x1x1 1 [⟨S1024x1024x1x1, m ((c.tc : Thread nD τ).loc main_arg0)⟩,
          ⟨S1024x32x1x1, shapeCast S1024x32x1x1 ((dat1 (V3 m ρ) c).arrAt 2 cfg1.N) shapeCasts_S1024x32_S1024x32x1x1⟩]
          concatenates_S1024x1024x1x1_S1024x32x1x1_S1024x1056x1x1_d1 := by
  show StableHlo.after hostOps2 (W4 m ρ c) (Proc.devRef .tc main_v8) = _
  after_results
  rw [x_kept m ρ c, show W4 m ρ c (Proc.devRef .tc main_v6) = (dat1 (V3 m ρ) c).arrAt 2 cfg1.N from W4_arr m ρ c 2]
  rfl

end Cert.KernelIdeal.Boundaries

end
-- ==== Proof.Products.lean ====
/-
  The two arrays the first pallas_call computes, as functions of its operands.

  With xf of shape [1024, 1024] and Tf of shape [1024, 256], the first output is the product xf · Tf, entry (n, c) the sum
  over f of xf(n, f) · Tf(f, c); the second output is its transpose computed directly, entry (c, n) the sum over f of
  Tf(f, c) · xf(n, f).  On the extended reals the two sums agree term by term, multiplication being commutative.
-/
import Idealize.ShloMosaic.PureOps.Ideal
import Idealize.ShloMosaic.Lib.ValueIdx

noncomputable section

namespace Cert.KernelIdeal.Products

open Idealize.ShloMosaic Idealize.ShloMosaic.ValueIdx

/-- Entry (n, c) of xf · Tf. -/
def byRows (X : (⟨2, ![1024, 1024]⟩ : Shape).Idx → EReal) (W : (⟨2, ![1024, 256]⟩ : Shape).Idx → EReal)
    (n : Fin 1024) (c : Fin 256) : EReal :=
  ∑ f : Fin 1024, X (ix2 n f) * W (ix2 f c)

/-- Entry (c, n) of the transposed product, as the kernel's second matrix unit call computes it. -/
def byCols (X : (⟨2, ![1024, 1024]⟩ : Shape).Idx → EReal) (W : (⟨2, ![1024, 256]⟩ : Shape).Idx → EReal)
    (c : Fin 256) (n : Fin 1024) : EReal :=
  ∑ f : Fin 1024, W (ix2 f c) * X (ix2 n f)

/-- The transposed product is the product, entry by entry. -/
theorem byCols_eq_byRows (X : (⟨2, ![1024, 1024]⟩ : Shape).Idx → EReal) (W : (⟨2, ![1024, 256]⟩ : Shape).Idx → EReal)
    (c : Fin 256) (n : Fin 1024) : byCols X W c n = byRows X W n c :=
  Finset.sum_congr rfl fun f _ => mul_comm _ _

end Cert.KernelIdeal.Products

end
-- ==== Proof.ProductsValue.lean ====
/-
  The two arrays the first pipelined kernel writes, read entry by entry.

  The kernel walks four grid points.  At point t it holds rows 256·t … 256·t + 255 of the left operand (a 256 × 1024
  block) and the whole right operand (1024 × 256).  Its first matrix product, block times right operand, is written to
  rows 256·t … 256·t + 255 of the first result; its second product contracts the same axis with the operands in the
  other order, so it is the transposed 256 × 256 block, and is written to columns 256·t … 256·t + 255 of the second
  result.  Entry (r, c) of the first result therefore depends on row r of the left operand and column c of the right
  one only, and is their inner product; entry (c, r) of the second result is the same inner product with each product's
  two factors exchanged.  The four row blocks fill the first result and the four column blocks fill the second, so after
  the last point both arrays are these functions of the operands at every index.
-/
import proofs.«100939_j85246510891072_2_alg».proof.Proof.Gen.KernelIdeal.Frame
import proofs.«100939_j85246510891072_2_alg».proof.Proof.Products
import Idealize.ShloMosaic.Lib.Pipeline.Value
import Idealize.ShloMosaic.Lib.ValueIdx
import Idealize.ShloMosaic.PureOps.Ideal.Laws

set_option maxRecDepth 16384

noncomputable section

namespace Cert.KernelIdeal.ProductsValue

open Cert.KernelIdeal Cert.KernelIdeal.Gen Idealize.ShloMosaic Idealize.ShloMosaic.TcCoe Idealize.SL.Sem
open Idealize.ShloMosaic.ValueIdx
open Idealize.ShloMosaic.Pipeline (Dat)

/-! ## One matrix product at an entry

Both products contract one axis of extent 1024.  The contraction's index set is identified with `Fin 1024`, and the two
operand indices at an output entry and a contraction position are read off the dimension numbers: the contracted axis
carries the position, the other axis the output's coordinate. -/

/-- First product, left operand: axis 0 is the output's row. -/
theorem rowsDot_lhs_0 (i : S256x256.Idx) (k : dot_S256x1024_S1024x256_S256x256_1_0_0_1_n_n.contr.Idx) :
    (dot_S256x1024_S1024x256_S256x256_1_0_0_1_n_n.lhsIdx i k 0).val = (i 0).val := by
  unfold DotDims.lhsIdx
  rw [dif_neg (show ¬(0 : Fin S256x1024.rank) ∈ dot_S256x1024_S1024x256_S256x256_1_0_0_1_n_n.lhsBatch by decide),
    dif_pos (show (0 : Fin S256x1024.rank) ∈ dot_S256x1024_S1024x256_S256x256_1_0_0_1_n_n.lhsNonContracting by decide)]
  rfl

/-- First product, left operand: axis 1 is the contracted one. -/
theorem rowsDot_lhs_1 (i : S256x256.Idx) (k : dot_S256x1024_S1024x256_S256x256_1_0_0_1_n_n.contr.Idx) :
    (dot_S256x1024_S1024x256_S256x256_1_0_0_1_n_n.lhsIdx i k 1).val = (k ⟨0, by decide⟩).val :=
  dot_S256x1024_S1024x256_S256x256_1_0_0_1_n_n.lhsIdx_val_of_single rfl i k

/-- First product, right operand: axis 0 is the contracted one. -/
theorem rowsDot_rhs_0 (i : S256x256.Idx) (k : dot_S256x1024_S1024x256_S256x256_1_0_0_1_n_n.contr.Idx) :
    (dot_S256x1024_S1024x256_S256x256_1_0_0_1_n_n.rhsIdx i k 0).val = (k ⟨0, by decide⟩).val :=
  dot_S256x1024_S1024x256_S256x256_1_0_0_1_n_n.rhsIdx_val_of_single rfl i k

/-- First product, right operand: axis 1 is the output's column. -/
theorem rowsDot_rhs_1 (i : S256x256.Idx) (k : dot_S256x1024_S1024x256_S256x256_1_0_0_1_n_n.contr.Idx) :
    (dot_S256x1024_S1024x256_S256x256_1_0_0_1_n_n.rhsIdx i k 1).val = (i 1).val := by
  unfold DotDims.rhsIdx
  rw [dif_neg (show ¬(1 : Fin S1024x256.rank) ∈ dot_S256x1024_S1024x256_S256x256_1_0_0_1_n_n.rhsBatch by decide),
    dif_pos (show (1 : Fin S1024x256.rank) ∈ dot_S256x1024_S1024x256_S256x256_1_0_0_1_n_n.rhsNonContracting by decide)]
  rfl

/-- The first product at entry (p, q): row p of the block against column q of the right operand. -/
theorem rowsPayload_apply (x0 : Vec Ideal S256x1024 .f32) (x1 : Vec Ideal S1024x256 .f32) (p q : Fin 256) :
    k0_pay3 (F := Ideal) x0 x1 (ix2 p q) = ∑ f : Fin 1024, x0 (ix2 p f) * x1 (ix2 f q) := by
  unfold k0_pay3 k0_pay1 k0_pay2
  dsimp only
  rw [shapeCast_self, shapeCast_self]
  refine (Ideal.matmul_constant_zero_apply dot_S256x1024_S1024x256_S256x256_1_0_0_1_n_n none x0 x1 (ix2 p q)).trans ?_
  rw [← Equiv.sum_comp (ValueIdx.contrEquiv1 dot_S256x1024_S1024x256_S256x256_1_0_0_1_n_n 1024 rfl rfl).symm]
  refine Finset.sum_congr rfl fun k _ => ?_
  have hk := ValueIdx.contrEquiv1_symm_val dot_S256x1024_S1024x256_S256x256_1_0_0_1_n_n 1024 rfl rfl k
  have el : dot_S256x1024_S1024x256_S256x256_1_0_0_1_n_n.lhsIdx (ix2 p q) ((ValueIdx.contrEquiv1 dot_S256x1024_S1024x256_S256x256_1_0_0_1_n_n 1024 rfl rfl).symm k) = ix2 p k := funext fun a => Fin.ext (by
    match a with
    | ⟨0, _⟩ => exact rowsDot_lhs_0 _ _
    | ⟨1, _⟩ => exact (rowsDot_lhs_1 _ _).trans hk)
  have er : dot_S256x1024_S1024x256_S256x256_1_0_0_1_n_n.rhsIdx (ix2 p q) ((ValueIdx.contrEquiv1 dot_S256x1024_S1024x256_S256x256_1_0_0_1_n_n 1024 rfl rfl).symm k) = ix2 k q := funext fun a => Fin.ext (by
    match a with
    | ⟨0, _⟩ => exact (rowsDot_rhs_0 _ _).trans hk
    | ⟨1, _⟩ => exact rowsDot_rhs_1 _ _)
  rw [el, er]

/-- Second product, left operand (the right operand of the first): axis 0 is the contracted one. -/
theorem colsDot_lhs_0 (i : S256x256.Idx) (k : dot_S1024x256_S256x1024_S256x256_0_1_1_0_n_n.contr.Idx) :
    (dot_S1024x256_S256x1024_S256x256_0_1_1_0_n_n.lhsIdx i k 0).val = (k ⟨0, by decide⟩).val :=
  dot_S1024x256_S256x1024_S256x256_0_1_1_0_n_n.lhsIdx_val_of_single rfl i k

/-- Second product, left operand: axis 1 is the output's row. -/
theorem colsDot_lhs_1 (i : S256x256.Idx) (k : dot_S1024x256_S256x1024_S256x256_0_1_1_0_n_n.contr.Idx) :
    (dot_S1024x256_S256x1024_S256x256_0_1_1_0_n_n.lhsIdx i k 1).val = (i 0).val := by
  unfold DotDims.lhsIdx
  rw [dif_neg (show ¬(1 : Fin S1024x256.rank) ∈ dot_S1024x256_S256x1024_S256x256_0_1_1_0_n_n.lhsBatch by decide),
    dif_pos (show (1 : Fin S1024x256.rank) ∈ dot_S1024x256_S256x1024_S256x256_0_1_1_0_n_n.lhsNonContracting by decide)]
  rfl

/-- Second product, right operand (the block): axis 0 is the output's column. -/
theorem colsDot_rhs_0 (i : S256x256.Idx) (k : dot_S1024x256_S256x1024_S256x256_0_1_1_0_n_n.contr.Idx) :
    (dot_S1024x256_S256x1024_S256x256_0_1_1_0_n_n.rhsIdx i k 0).val = (i 1).val := by
  unfold DotDims.rhsIdx
  rw [dif_neg (show ¬(0 : Fin S256x1024.rank) ∈ dot_S1024x256_S256x1024_S256x256_0_1_1_0_n_n.rhsBatch by decide),
    dif_pos (show (0 : Fin S256x1024.rank) ∈ dot_S1024x256_S256x1024_S256x256_0_1_1_0_n_n.rhsNonContracting by decide)]
  rfl

/-- Second product, right operand: axis 1 is the contracted one. -/
theorem colsDot_rhs_1 (i : S256x256.Idx) (k : dot_S1024x256_S256x1024_S256x256_0_1_1_0_n_n.contr.Idx) :
    (dot_S1024x256_S256x1024_S256x256_0_1_1_0_n_n.rhsIdx i k 1).val = (k ⟨0, by decide⟩).val :=
  dot_S1024x256_S256x1024_S256x256_0_1_1_0_n_n.rhsIdx_val_of_single rfl i k

/-- The second product at entry (p, q): column p of the right operand against row q of the block, the right operand's
    factor first. -/
theorem colsPayload_apply (x0 : Vec Ideal S256x1024 .f32) (x1 : Vec Ideal S1024x256 .f32) (p q : Fin 256) :
    k0_pay4 (F := Ideal) x0 x1 (ix2 p q) = ∑ f : Fin 1024, x1 (ix2 f p) * x0 (ix2 q f) := by
  unfold k0_pay4 k0_pay1 k0_pay2
  dsimp only
  rw [shapeCast_self, shapeCast_self]
  refine (Ideal.matmul_constant_zero_apply dot_S1024x256_S256x1024_S256x256_0_1_1_0_n_n none x1 x0 (ix2 p q)).trans ?_
  rw [← Equiv.sum_comp (ValueIdx.contrEquiv1 dot_S1024x256_S256x1024_S256x256_0_1_1_0_n_n 1024 rfl rfl).symm]
  refine Finset.sum_congr rfl fun k _ => ?_
  have hk := ValueIdx.contrEquiv1_symm_val dot_S1024x256_S256x1024_S256x256_0_1_1_0_n_n 1024 rfl rfl k
  have el : dot_S1024x256_S256x1024_S256x256_0_1_1_0_n_n.lhsIdx (ix2 p q) ((ValueIdx.contrEquiv1 dot_S1024x256_S256x1024_S256x256_0_1_1_0_n_n 1024 rfl rfl).symm k) = ix2 k p := funext fun a => Fin.ext (by
    match a with
    | ⟨0, _⟩ => exact (colsDot_lhs_0 _ _).trans hk
    | ⟨1, _⟩ => exact colsDot_lhs_1 _ _)
  have er : dot_S1024x256_S256x1024_S256x256_0_1_1_0_n_n.rhsIdx (ix2 p q) ((ValueIdx.contrEquiv1 dot_S1024x256_S256x1024_S256x256_0_1_1_0_n_n 1024 rfl rfl).symm k) = ix2 q k := funext fun a => Fin.ext (by
    match a with
    | ⟨0, _⟩ => exact colsDot_rhs_0 _ _
    | ⟨1, _⟩ => exact (colsDot_rhs_1 _ _).trans hk)
  rw [el, er]

/-! ## Where the blocks sit

At grid point t the left operand's block and the first result's block are at block row t, the second result's block at
block column t, and the right operand's one block never moves. -/

theorem hz : (![0, 0] : Fin 2 → Nat) = fun _ => 0 := funext fun a => by fin_cases a <;> rfl

/-- The index maps at every grid point, decided over the four points. -/
theorem blockIndex_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

variable (V : (c : Dev nD) → (b : Ref sig .tc) → Buf (Elt Ideal) ((c : Thread nD τ).loc b))

/-! ## The operand blocks, read off the operands

A block's entry sits in its array, on each axis, at block index × block extent + its coordinate inside the block. -/

/-- Row p of the left operand's block at point t is row 256·t + p of the left operand. -/
theorem leftBlock_apply (c : Dev nD) (t : Fin cfg0.N) (p : Fin 256) (f : Fin 1024) (n : Fin 1024)
    (hn : n.val = t.val * 256 + p.val) :
    (iblk0 (F := Ideal) V c 0 t : Vec Ideal S256x1024 .f32) (ix2 p f) = (V c main_v0 : S1024x1024.Idx → EReal) (ix2 n f) := by
  obtain ⟨e0, e1, -⟩ := blockIndex_facts t
  unfold iblk0
  rw [View.read_apply]
  show V c main_v0 _ = V c main_v0 _
  congr 1
  funext a
  apply Fin.ext
  match a with
  | ⟨0, _⟩ => show win0_0.index t (0 : Fin 2) * 256 + 1 * p.val = n.val; rw [e0, hn]; omega
  | ⟨1, _⟩ => show win0_0.index t (1 : Fin 2) * 1024 + 1 * f.val = f.val; rw [e1]; omega

/-- The right operand's one block is the right operand at every point. -/
theorem rightBlock_apply (c : Dev nD) (t : Fin cfg0.N) (f : Fin 1024) (q : Fin 256) :
    (iblk0 (F := Ideal) V c 1 t : Vec Ideal S1024x256 .f32) (ix2 f q) = (V c main_v2 : S1024x256.Idx → EReal) (ix2 f q) := by
  obtain ⟨-, -, e2, e3, -⟩ := blockIndex_facts t
  unfold iblk0
  rw [View.read_apply]
  show V c main_v2 _ = V c main_v2 _
  congr 1
  funext a
  apply Fin.ext
  match a with
  | ⟨0, _⟩ => show win0_1.index t (0 : Fin 2) * 1024 + 1 * f.val = f.val; rw [e2]; omega
  | ⟨1, _⟩ => show win0_1.index t (1 : Fin 2) * 256 + 1 * q.val = q.val; rw [e3]; omega

/-! ## One entry of what a point computes

Stated over any block contents whose rows are the named rows of the operands, and used at the operand blocks. -/

/-- Entry (p, q) of the first product, when row p of the block is row n of X and the other block is W: the inner
    product of row n of X and column q of W. -/
theorem rows_entry (X : S1024x1024.Idx → EReal) (W : S1024x256.Idx → EReal)
    (x0 : Vec Ideal S256x1024 .f32) (x1 : Vec Ideal S1024x256 .f32) (p q : Fin 256) (n : Fin 1024)
    (h0 : ∀ f : Fin 1024, x0 (ix2 p f) = X (ix2 n f)) (h1 : ∀ f : Fin 1024, x1 (ix2 f q) = W (ix2 f q)) :
    k0_pay3 (F := Ideal) x0 x1 (ix2 p q) = Products.byRows X W n q := by
  rw [rowsPayload_apply]
  unfold Products.byRows
  exact Finset.sum_congr rfl fun f _ => by rw [h0 f, h1 f]

/-- Entry (p, q) of the second product, when row q of the block is row n of X and the other block is W: the inner
    product of column p of W and row n of X, W's factor first. -/
theorem cols_entry (X : S1024x1024.Idx → EReal) (W : S1024x256.Idx → EReal)
    (x0 : Vec Ideal S256x1024 .f32) (x1 : Vec Ideal S1024x256 .f32) (p q : Fin 256) (n : Fin 1024)
    (h0 : ∀ f : Fin 1024, x0 (ix2 q f) = X (ix2 n f)) (h1 : ∀ f : Fin 1024, x1 (ix2 f p) = W (ix2 f p)) :
    k0_pay4 (F := Ideal) x0 x1 (ix2 p q) = Products.byCols X W p n := by
  rw [colsPayload_apply]
  unfold Products.byCols
  exact Finset.sum_congr rfl fun f _ => by rw [h0 f, h1 f]

/-! ## What each point writes back -/

/-- Point t writes to the first result the rows 256·t … 256·t + 255 of the product of the operands. -/
theorem flushed_rows (c : Dev nD) (t : Fin cfg0.N) :
    (dat0 (F := Ideal) V c).flushed 2 t = ((cfg0.win 2).blk t).view.read (Elt Ideal)
      (fun i => Products.byRows (V c main_v0) (V c main_v2) (i 0) (i 1)) := by
  show (cfg0.win 2).cut (grid0.coords t) ((dat0 V c).after 2 t) = _
  rw [after0_2]
  unfold out0_2
  rw [View.canon_unit_zero hz]
  simp only [View.ld_unit_zero (S := S256x1024) hz, View.ld_unit_zero (S := S1024x256) hz]
  funext j
  rw [View.read_apply]
  have hN : grid0.N = 4 := N_0
  have ht : t.val < grid0.N := t.isLt
  have hj0 : (j 0).val < 256 := (j 0).isLt
  have hj1 : (j 1).val < 256 := (j 1).isLt
  obtain ⟨-, -, -, -, e4, e5, -, -⟩ := blockIndex_facts t
  have hy : ((win0 2).xinj (grid0.coords t) j : S256x256.Idx) = ix2 (⟨(j 0).val, hj0⟩ : Fin 256) (⟨(j 1).val, hj1⟩ : Fin 256) :=
    funext fun a => by match a with | ⟨0, _⟩ => rfl | ⟨1, _⟩ => rfl
  dsimp only [Pipeline.Window.cut]
  rw [hy]
  refine (rows_entry (V c main_v0) (V c main_v2) (iblk0 V c 0 t) (iblk0 V c 1 t) ⟨(j 0).val, hj0⟩ ⟨(j 1).val, hj1⟩
    ⟨t.val * 256 + (j 0).val, by omega⟩ (fun f => leftBlock_apply V c t _ f _ rfl) (fun f => rightBlock_apply V c t f _)).trans ?_
  refine (congrArg₂ (Products.byRows (V c main_v0) (V c main_v2)) ?_ ?_).trans (cast_eq _ _).symm
  · apply Fin.ext
    show t.val * 256 + (j 0).val = win0_2.index t (0 : Fin 2) * 256 + 1 * (j 0).val
    rw [e4]; omega
  · apply Fin.ext
    show (j 1).val = win0_2.index t (1 : Fin 2) * 256 + 1 * (j 1).val
    rw [e5]; omega

/-- Point t writes to the second result the columns 256·t … 256·t + 255 of the transposed product. -/
theorem flushed_cols (c : Dev nD) (t : Fin cfg0.N) :
    (dat0 (F := Ideal) V c).flushed 3 t = ((cfg0.win 3).blk t).view.read (Elt Ideal)
      (fun i => Products.byCols (V c main_v0) (V c main_v2) (i 0) (i 1)) := by
  show (cfg0.win 3).cut (grid0.coords t) ((dat0 V c).after 3 t) = _
  rw [after0_3]
  unfold out0_3
  rw [View.canon_unit_zero hz]
  simp only [View.ld_unit_zero (S := S256x1024) hz, View.ld_unit_zero (S := S1024x256) hz]
  funext j
  rw [View.read_apply]
  have hN : grid0.N = 4 := N_0
  have ht : t.val < grid0.N := t.isLt
  have hj0 : (j 0).val < 256 := (j 0).isLt
  have hj1 : (j 1).val < 256 := (j 1).isLt
  obtain ⟨-, -, -, -, -, -, e6, e7⟩ := blockIndex_facts t
  have hy : ((win0 3).xinj (grid0.coords t) j : S256x256.Idx) = ix2 (⟨(j 0).val, hj0⟩ : Fin 256) (⟨(j 1).val, hj1⟩ : Fin 256) :=
    funext fun a => by match a with | ⟨0, _⟩ => rfl | ⟨1, _⟩ => rfl
  dsimp only [Pipeline.Window.cut]
  rw [hy]
  refine (cols_entry (V c main_v0) (V c main_v2) (iblk0 V c 0 t) (iblk0 V c 1 t) ⟨(j 0).val, hj0⟩ ⟨(j 1).val, hj1⟩
    ⟨t.val * 256 + (j 1).val, by omega⟩ (fun f => leftBlock_apply V c t _ f _ rfl) (fun f => rightBlock_apply V c t f _)).trans ?_
  refine (congrArg₂ (Products.byCols (V c main_v0) (V c main_v2)) ?_ ?_).trans (cast_eq _ _).symm
  · apply Fin.ext
    show (j 0).val = win0_3.index t (0 : Fin 2) * 256 + 1 * (j 0).val
    rw [e6]; omega
  · apply Fin.ext
    show t.val * 256 + (j 1).val = win0_3.index t (1 : Fin 2) * 256 + 1 * (j 1).val
    rw [e7]; omega

/-! ## The blocks fill the arrays -/

/-- An index of the first result is in point t's block iff each coordinate is in the block's range on its axis. -/
theorem mem_rowsBlock (t : Fin cfg0.N) (i : S1024x256.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v3_0).slice (win0_2.rect t)).set ↔ _
  rw [View.set_slice_whole, Rect.mem_set_unit]
  exact Iff.rfl

/-- An index of the second result is in point t's block iff each coordinate is in the block's range on its axis. -/
theorem mem_colsBlock (t : Fin cfg0.N) (i : S256x1024.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v3_1).slice (win0_3.rect t)).set ↔ _
  rw [View.set_slice_whole, Rect.mem_set_unit]
  exact Iff.rfl

/-- Row r of the first result is written by point r / 256. -/
theorem rows_cover (i : S1024x256.Idx) :
    ∃ t : Fin cfg0.N, (cfg0.win 2).flush t = true ∧ i ∈ ((cfg0.win 2).blk t).view.set := by
  have hN : grid0.N = 4 := N_0
  have hi0 : (i 0).val < 1024 := (i 0).isLt
  have hi1 : (i 1).val < 256 := (i 1).isLt
  obtain ⟨t, ht⟩ : ∃ t : Fin cfg0.N, t.val = (i 0).val / 256 :=
    ⟨⟨(i 0).val / 256, by show (i 0).val / 256 < grid0.N; omega⟩, rfl⟩
  obtain ⟨-, -, -, -, e4, e5, -, -⟩ := blockIndex_facts t
  refine ⟨t, flush0_2 t, ?_⟩
  rw [mem_rowsBlock]
  intro a
  match a with
  | ⟨0, _⟩ =>
    show win0_2.index t (0 : Fin 2) * 256 ≤ (i 0).val ∧ (i 0).val < win0_2.index t (0 : Fin 2) * 256 + 256
    rw [e4, ht]; omega
  | ⟨1, _⟩ =>
    show win0_2.index t (1 : Fin 2) * 256 ≤ (i 1).val ∧ (i 1).val < win0_2.index t (1 : Fin 2) * 256 + 256
    rw [e5]; omega

/-- Column r of the second result is written by point r / 256. -/
theorem cols_cover (i : S256x1024.Idx) :
    ∃ t : Fin cfg0.N, (cfg0.win 3).flush t = true ∧ i ∈ ((cfg0.win 3).blk t).view.set := by
  have hN : grid0.N = 4 := N_0
  have hi0 : (i 0).val < 256 := (i 0).isLt
  have hi1 : (i 1).val < 1024 := (i 1).isLt
  obtain ⟨t, ht⟩ : ∃ t : Fin cfg0.N, t.val = (i 1).val / 256 :=
    ⟨⟨(i 1).val / 256, by show (i 1).val / 256 < grid0.N; omega⟩, rfl⟩
  obtain ⟨-, -, -, -, -, -, e6, e7⟩ := blockIndex_facts t
  refine ⟨t, flush0_3 t, ?_⟩
  rw [mem_colsBlock]
  intro a
  match a with
  | ⟨0, _⟩ =>
    show win0_3.index t (0 : Fin 2) * 256 ≤ (i 0).val ∧ (i 0).val < win0_3.index t (0 : Fin 2) * 256 + 256
    rw [e6]; omega
  | ⟨1, _⟩ =>
    show win0_3.index t (1 : Fin 2) * 256 ≤ (i 1).val ∧ (i 1).val < win0_3.index t (1 : Fin 2) * 256 + 256
    rw [e7, ht]; omega

/-! ## The two arrays after the last point -/

/-- The first result is the product of the operands, entry by entry. -/
theorem out_rows (c : Dev nD) : (dat0 (F := Ideal) V c).arrAt 2 cfg0.N
    = fun i => Products.byRows (V c main_v0) (V c main_v2) (i 0) (i 1) :=
  (dat0 (F := Ideal) V c).arrAt_eq_of_cover 2 _ (fun t _ => flushed_rows V c t) rows_cover

/-- The second result is the transposed product of the operands, entry by entry. -/
theorem out_cols (c : Dev nD) : (dat0 (F := Ideal) V c).arrAt 3 cfg0.N
    = fun i => Products.byCols (V c main_v0) (V c main_v2) (i 0) (i 1) :=
  (dat0 (F := Ideal) V c).arrAt_eq_of_cover 3 _ (fun t _ => flushed_cols V c t) cols_cover

end Cert.KernelIdeal.ProductsValue

end
-- ==== Proof.Whole.lean ====
/-
  The whole computation as one function of xf (x reshaped to [1024, 1024]) and T (of shape [1024, 32, 8]).

  Both programs first project every row n of xf onto the 32 · 8 columns of T:  proj(n, o, k) = sum over f of
  xf(n, f) · T(f, o, k).  Both then compare every pair of rows feature by feature,

      out(b, o) = (sum over rows a of exp (−(sum over k of |proj(b, o, k) − proj(a, o, k)|))) − 1 ,

  the word 1.0 kept as it is printed.  The pairwise stage of the kernel is this once its two operands are read as the
  projection laid out [row, k, o] and [k, o, row].
-/
import proofs.«100939_j85246510891072_2_alg».proof.Proof.PairSpec

noncomputable section

namespace Cert.KernelIdeal.Whole

open Idealize.ShloMosaic Idealize.ShloMosaic.ValueIdx

/-- Row n of xf against column (o, k) of T. -/
def proj (X : (⟨2, ![1024, 1024]⟩ : Shape).Idx → EReal) (T : (⟨3, ![1024, 32, 8]⟩ : Shape).Idx → EReal)
    (n : Fin 1024) (o : Fin 32) (k : Fin 8) : EReal :=
  ∑ f : Fin 1024, X (ix2 n f) * T (ix3 f o k)

/-- The result's entry at (b, o), before it is joined to x. -/
def out (X : (⟨2, ![1024, 1024]⟩ : Shape).Idx → EReal) (T : (⟨3, ![1024, 32, 8]⟩ : Shape).Idx → EReal)
    (b : Fin 1024) (o : Fin 32) : EReal :=
  (∑ a : Fin 1024, FloatOps.exp (F := Ideal) (φ := .f32)
    (-(∑ k : Fin 8, FloatOps.absf (F := Ideal) (φ := .f32) (proj X T b o k - proj X T a o k)))) - Pairwise.oneW

/-- The pairwise stage on the projection laid out [row, k, o] against the projection laid out [k, o, row]. -/
theorem row_eq_out (A : (⟨3, ![1024, 8, 32]⟩ : Shape).Idx → EReal) (B : (⟨3, ![8, 32, 1024]⟩ : Shape).Idx → EReal)
    (X : (⟨2, ![1024, 1024]⟩ : Shape).Idx → EReal) (T : (⟨3, ![1024, 32, 8]⟩ : Shape).Idx → EReal)
    (hA : ∀ (i : Fin 1024) (k : Fin 8) (o : Fin 32), A (ix3 i k o) = proj X T i o k)
    (hB : ∀ (k : Fin 8) (o : Fin 32) (j : Fin 1024), B (ix3 k o j) = proj X T j o k)
    (b : Fin 1024) (o : Fin 32) : Pairwise.row A B b o = out X T b o := by
  unfold Pairwise.row Pairwise.gap out
  simp only [hA, hB]

end Cert.KernelIdeal.Whole

end
-- ==== Proof.KernelSide.lean ====
/-
  The idealized kernel's result is the whole computation `Whole.out` of xf and T, reshaped and joined to x.

  The first pallas_call's operands are xf and Tf, where Tf(f, k · 32 + o) = T(f, o, k): T with its last two axes swapped,
  rows flattened.  Its outputs are xf · Tf and the transpose of that product.  Reshaped to [1024, 8, 32] and [8, 32, 1024],
  entry (i, k, o) of the first is column k · 32 + o of row i of the product, and entry (k, o, j) of the second is row
  k · 32 + o, column j of the transposed product, which is column k · 32 + o of row j of the product: both are the
  projection of a row of xf onto column (o, k) of T.  The second pallas_call is the pairwise stage on these two arrays,
  so its output is `Whole.out`.
-/
import proofs.«100939_j85246510891072_2_alg».proof.Proof.Boundaries
import proofs.«100939_j85246510891072_2_alg».proof.Proof.Products
import proofs.«100939_j85246510891072_2_alg».proof.Proof.ProductsValue
import proofs.«100939_j85246510891072_2_alg».proof.Proof.Whole
import Idealize.ShloMosaic.Lib.ValueLayout

set_option maxRecDepth 16384

noncomputable section

namespace Cert.KernelIdeal.KernelSide

open Cert.KernelIdeal Cert.KernelIdeal.Gen Idealize.ShloMosaic Idealize.ShloMosaic.TcCoe Idealize.ShloMosaic.ValueIdx Idealize.SL.Sem

/-- Tf at (f, k · 32 + o) is T at (f, o, k). -/
theorem tf_apply (T : S1024x32x8.Idx → EReal) (ht : S1024x32x8.Transposes [0, 2, 1] S1024x8x32)
    (hs : S1024x8x32.ShapeCasts S1024x256) (f : Fin 1024) (k : Fin 8) (o : Fin 32) (c : Fin 256) (hc : c.val = k.val * 32 + o.val) :
    shapeCast S1024x256 (transpose S1024x8x32 [0, 2, 1] T ht) hs (ix2 f c) = T (ix3 f o k) := by
  rw [shapeCast_apply _ hs (ix2 f c) (ix3 f k o) (by
    rw [Shape.rowMajor_val_three, Shape.rowMajor_val_two]
    show (f.val * 8 + k.val) * 32 + o.val = f.val * 256 + c.val
    omega)]
  exact transpose_ix3_021_apply T ht f k o

/-- A [1024, 256] array reshaped to [1024, 8, 32] reads, at (i, k, o), column k · 32 + o of row i. -/
theorem castRows (G : S1024x256.Idx → EReal) (h : S1024x256.ShapeCasts S1024x8x32) (i : Fin 1024) (k : Fin 8) (o : Fin 32)
    (c : Fin 256) (hc : c.val = k.val * 32 + o.val) : shapeCast S1024x8x32 G h (ix3 i k o) = G (ix2 i c) :=
  shapeCast_apply G h (ix3 i k o) (ix2 i c) (by
    rw [Shape.rowMajor_val_three, Shape.rowMajor_val_two]
    show i.val * 256 + c.val = (i.val * 8 + k.val) * 32 + o.val
    omega)

/-- A [256, 1024] array reshaped to [8, 32, 1024] reads, at (k, o, j), column j of row k · 32 + o. -/
theorem castCols (G : S256x1024.Idx → EReal) (h : S256x1024.ShapeCasts S8x32x1024) (k : Fin 8) (o : Fin 32) (j : Fin 1024)
    (c : Fin 256) (hc : c.val = k.val * 32 + o.val) : shapeCast S8x32x1024 G h (ix3 k o j) = G (ix2 c j) :=
  shapeCast_apply G h (ix3 k o j) (ix2 c j) (by
    rw [Shape.rowMajor_val_three, Shape.rowMajor_val_two]
    show c.val * 1024 + j.val = (k.val * 32 + o.val) * 1024 + j.val
    omega)

/-- The product's entry (n, k · 32 + o) is the projection of row n of xf onto column (o, k) of T. -/
theorem byRows_proj (X : S1024x1024.Idx → EReal) (T : S1024x32x8.Idx → EReal) (W : S1024x256.Idx → EReal)
    (hW : ∀ (f : Fin 1024) (k : Fin 8) (o : Fin 32) (c : Fin 256), c.val = k.val * 32 + o.val → W (ix2 f c) = T (ix3 f o k))
    (n : Fin 1024) (k : Fin 8) (o : Fin 32) (c : Fin 256) (hc : c.val = k.val * 32 + o.val) :
    Products.byRows X W n c = Whole.proj X T n o k := by
  unfold Products.byRows Whole.proj
  exact Finset.sum_congr rfl fun f _ => by rw [hW f k o c hc]

variable (m : (ℓ : Loc nD τ sig) → Buf (Elt Ideal) ℓ) (ρ : Dev nD → PrngReg)

/-- Column k · 32 + o, for k below 8 and o below 32, is a column below 256. -/
abbrev col (k : Fin 8) (o : Fin 32) : Fin 256 := ⟨k.val * 32 + o.val, by have := k.isLt; have := o.isLt; omega⟩

/-- The second pallas_call's first operand is the projection laid out [row, k, o]. -/
theorem query_proj (c : Dev nD) (i : Fin 1024) (k : Fin 8) (o : Fin 32) :
    V3 m ρ c main_v4 (ix3 i k o)
      = Whole.proj (shapeCast S1024x1024 (m ((c.tc : Thread nD τ).loc main_arg0)) shapeCasts_S1024x1024x1x1_S1024x1024)
          (m ((c.tc : Thread nD τ).loc main_arg1)) i o k := by
  rw [Boundaries.entry1_i m ρ c, ProductsValue.out_rows (V1 m ρ) c, castRows _ _ i k o (col k o) rfl]
  show Products.byRows (V1 m ρ c main_v0) (V1 m ρ c main_v2) i (col k o) = _
  rw [Boundaries.entry0_x m ρ c, Boundaries.entry0_t m ρ c]
  exact byRows_proj _ _ _ (fun f k' o' c' hc' => tf_apply _ _ _ f k' o' c' hc') i k o (col k o) rfl

/-- The second pallas_call's second operand is the projection laid out [k, o, row]. -/
theorem key_proj (c : Dev nD) (k : Fin 8) (o : Fin 32) (j : Fin 1024) :
    V3 m ρ c main_v5 (ix3 k o j)
      = Whole.proj (shapeCast S1024x1024 (m ((c.tc : Thread nD τ).loc main_arg0)) shapeCasts_S1024x1024x1x1_S1024x1024)
          (m ((c.tc : Thread nD τ).loc main_arg1)) j o k := by
  rw [Boundaries.entry1_t m ρ c, ProductsValue.out_cols (V1 m ρ) c, castCols _ _ k o j (col k o) rfl]
  show Products.byCols (V1 m ρ c main_v0) (V1 m ρ c main_v2) (col k o) j = _
  rw [Products.byCols_eq_byRows, Boundaries.entry0_x m ρ c, Boundaries.entry0_t m ρ c]
  exact byRows_proj _ _ _ (fun f k' o' c' hc' => tf_apply _ _ _ f k' o' c' hc') j k o (col k o) rfl

/-- x joined along axis 1 with a [1024, 32] array reshaped to [1024, 32, 1, 1]: the form of the result. -/
def joined (x0 : S1024x1024x1x1.Idx → EReal) (G : S1024x32.Idx → EReal) : S1024x1056x1x1.Idx → EReal :=
  concatenate S1024x1056x1x1 1 [⟨S1024x1024x1x1, x0⟩,
    ⟨S1024x32x1x1, shapeCast S1024x32x1x1 G shapeCasts_S1024x32_S1024x32x1x1⟩]
    concatenates_S1024x1024x1x1_S1024x32x1x1_S1024x1056x1x1_d1

/-- The whole result as a function of the two arguments: x joined with `Whole.out` of xf and T. -/
def whole (x0 : S1024x1024x1x1.Idx → EReal) (x1 : S1024x32x8.Idx → EReal) : S1024x1056x1x1.Idx → EReal :=
  joined x0 (fun i : S1024x32.Idx =>
    Whole.out (shapeCast S1024x1024 x0 shapeCasts_S1024x1024x1x1_S1024x1024) x1 (i 0) (i 1))

/-- The result buffer after the run is `whole` of the two arguments — given that the second pallas_call leaves the
    pairwise stage of its two operands. -/
theorem result
    (hpairs : ∀ c : Dev nD, (dat1 (F := Ideal) (V3 m ρ) c).arrAt 2 cfg1.N
      = fun i => Pairwise.row (V3 m ρ c main_v4) (V3 m ρ c main_v5) (i 0) (i 1))
    (c : Dev nD) :
    W5 m ρ c (Proc.devRef .tc main_v8)
      = whole (m ((c.tc : Thread nD τ).loc main_arg0)) (m ((c.tc : Thread nD τ).loc main_arg1)) := by
  have h : (fun i : S1024x32.Idx => Pairwise.row (V3 m ρ c main_v4) (V3 m ρ c main_v5) (i 0) (i 1))
      = fun i : S1024x32.Idx => Whole.out (shapeCast S1024x1024 (m ((c.tc : Thread nD τ).loc main_arg0)) shapeCasts_S1024x1024x1x1_S1024x1024)
          (m ((c.tc : Thread nD τ).loc main_arg1)) (i 0) (i 1) :=
    funext fun i => Whole.row_eq_out _ _ _ _ (query_proj m ρ c) (key_proj m ρ c) (i 0) (i 1)
  rw [Boundaries.result m ρ c]
  exact congrArg (joined (m ((c.tc : Thread nD τ).loc main_arg0))) ((hpairs c).trans h)

end Cert.KernelIdeal.KernelSide

end
-- ==== Proof.RefSide.lean ====
/-
  The reference is the whole computation `Cert.KernelIdeal.Whole.out` of xf and T.

  The reference reshapes x to xf and T to [1024, 256] (column o · 8 + k), multiplies, and reshapes the product back to
  [1024, 32, 8]: entry (n, o, k) is column o · 8 + k of row n, the sum over f of xf(n, f) · T(f, o, k).  It broadcasts that
  array along a new first axis and along a new second axis, subtracts — at (a, b, o, k) the difference of rows b and a —,
  takes absolute values, sums over k from zero, negates, exponentiates, sums over the FIRST axis a from zero and subtracts
  the word 1.0.  Zero is neutral, so entry (b, o) is `Cert.KernelIdeal.Whole.out` at (b, o).
-/
import proofs.«100939_j85246510891072_2_alg».proof.Proof.Gen.ReferenceIdeal.Read
import proofs.«100939_j85246510891072_2_alg».proof.Proof.Whole

set_option maxRecDepth 16384

noncomputable section

namespace Cert.ReferenceIdeal.Bridge

open Cert.ReferenceIdeal Cert.ReferenceIdeal.Gen Cert.ReferenceIdeal.Read Idealize.ShloMosaic Idealize.ShloMosaic.ValueIdx

variable (x0 : (⟨S1024x1024x1x1, .f32⟩ : BufTy).Contents (Elt Ideal)) (x1 : (⟨S1024x32x8, .f32⟩ : BufTy).Contents (Elt Ideal))

/-- The reshaped product at (n, o, k) is row n of xf against column (o, k) of T. -/
theorem proj_ref (n : Fin 1024) (o : Fin 32) (k : Fin 8) :
    val_main_v3 (F := Ideal) x0 x1 (ix3 n o k) = Cert.KernelIdeal.Whole.proj (val_main_v0 (F := Ideal) x0) x1 n o k := by
  have hn := n.isLt
  have ho := o.isLt
  have hk := k.isLt
  rw [val_main_v3_apply, val_main_v2_apply]
  unfold Cert.KernelIdeal.Whole.proj
  refine Finset.sum_congr rfl fun f _ => ?_
  have hf := f.isLt
  have el : lidx_main_v2 (idx_main_v3 (ix3 n o k)) f = ix2 n f := funext fun a => Fin.ext (by
    match a with
    | ⟨0, _⟩ => show ((n.val * 32 + o.val) * 8 + k.val) / 256 = n.val; omega
    | ⟨1, _⟩ => rfl)
  have er : idx_main_v1 (ridx_main_v2 (idx_main_v3 (ix3 n o k)) f) = ix3 f o k := funext fun a => Fin.ext (by
    match a with
    | ⟨0, _⟩ => show (f.val * 256 + ((n.val * 32 + o.val) * 8 + k.val) % 256) / 256 = f.val; omega
    | ⟨1, _⟩ => show (f.val * 256 + ((n.val * 32 + o.val) * 8 + k.val) % 256) / 8 % 32 = o.val; omega
    | ⟨2, _⟩ => show (f.val * 256 + ((n.val * 32 + o.val) * 8 + k.val) % 256) % 8 = k.val; omega)
  rw [val_main_v1_apply, el, er]

/-- One absolute difference: rows b and a of the projection at (o, k). -/
theorem gap_ref (b : Fin 1024) (o : Fin 32) (a : Fin 1024) (k : Fin 8) :
    val_main_v9 (F := Ideal) x0 x1 (idx_main_v10 (idx_main_v13 (ix2 b o) a) k)
      = FloatOps.absf (F := Ideal) (φ := .f32)
          (Cert.KernelIdeal.Whole.proj (val_main_v0 (F := Ideal) x0) x1 b o k - Cert.KernelIdeal.Whole.proj (val_main_v0 (F := Ideal) x0) x1 a o k) := by
  rw [val_main_v9_apply, val_main_v8_apply, val_main_v6_apply, val_main_v7_apply, val_main_v4_apply, val_main_v5_apply]
  have e1 : idx_main_v4 (idx_main_v6 (idx_main_v10 (idx_main_v13 (ix2 b o) a) k)) = ix3 b o k :=
    funext fun d => Fin.ext (by match d with | ⟨0, _⟩ => rfl | ⟨1, _⟩ => rfl | ⟨2, _⟩ => rfl)
  have e2 : idx_main_v5 (idx_main_v7 (idx_main_v10 (idx_main_v13 (ix2 b o) a) k)) = ix3 a o k :=
    funext fun d => Fin.ext (by match d with | ⟨0, _⟩ => rfl | ⟨1, _⟩ => rfl | ⟨2, _⟩ => rfl)
  rw [e1, e2, proj_ref, proj_ref]
  rfl

/-- One term of the outer sum: row a's contribution to entry (b, o). -/
theorem term_ref (b : Fin 1024) (o : Fin 32) (a : Fin 1024) :
    val_main_v12 (F := Ideal) x0 x1 (idx_main_v13 (ix2 b o) a)
      = FloatOps.exp (F := Ideal) (φ := .f32) (-(∑ k : Fin 8, FloatOps.absf (F := Ideal) (φ := .f32)
          (Cert.KernelIdeal.Whole.proj (val_main_v0 (F := Ideal) x0) x1 b o k - Cert.KernelIdeal.Whole.proj (val_main_v0 (F := Ideal) x0) x1 a o k))) := by
  rw [val_main_v12_apply, val_main_v11_apply, val_main_v10_apply, val_main_cst_apply,
    Finset.sum_congr rfl (fun k _ => gap_ref x0 x1 b o a k)]
  show Ideal.exp (-(Cert.KernelIdeal.Pairwise.zeroW + _)) = Ideal.exp (-_)
  rw [Cert.KernelIdeal.Pairwise.zeroW_eq, zero_add]

/-- The reference's [1024, 32] array, before its last reshape, is `Cert.KernelIdeal.Whole.out` of xf and T. -/
theorem out_ref (b : Fin 1024) (o : Fin 32) :
    val_main_v15 (F := Ideal) x0 x1 (ix2 b o) = Cert.KernelIdeal.Whole.out (val_main_v0 (F := Ideal) x0) x1 b o := by
  rw [val_main_v15_apply, val_main_v13_apply, val_main_v14_apply, val_main_cst_1_apply, val_main_cst_0_apply,
    Finset.sum_congr rfl (fun a _ => term_ref x0 x1 b o a)]
  show (Cert.KernelIdeal.Pairwise.zeroW + _) - Cert.KernelIdeal.Pairwise.oneW = _
  rw [Cert.KernelIdeal.Pairwise.zeroW_eq, zero_add]
  rfl

/-- The reference's result: x, reshaped to xf and back, joined along axis 1 with the reshape of the whole computation of xf and T. -/
theorem result_ref : val_main_v18 (F := Ideal) x0 x1
    = concatenate S1024x1056x1x1 1 [⟨S1024x1024x1x1, x0⟩,
        ⟨S1024x32x1x1, shapeCast S1024x32x1x1 (fun i : S1024x32.Idx =>
          Cert.KernelIdeal.Whole.out (val_main_v0 (F := Ideal) x0) x1 (i 0) (i 1)) shapeCasts_S1024x32_S1024x32x1x1⟩]
        concatenates_S1024x1024x1x1_S1024x32x1x1_S1024x1056x1x1_d1 := by
  have h17 : val_main_v17 (F := Ideal) x0 = x0 := shapeCast_shapeCast x0 _ _
  have h15 : val_main_v15 (F := Ideal) x0 x1
      = fun i : S1024x32.Idx => Cert.KernelIdeal.Whole.out (val_main_v0 (F := Ideal) x0) x1 (i 0) (i 1) :=
    funext fun i => (congrArg (val_main_v15 (F := Ideal) x0 x1) (eq_ix2 i)).trans (out_ref x0 x1 (i 0) (i 1))
  unfold val_main_v18 val_main_v16
  rw [h17, h15]

end Cert.ReferenceIdeal.Bridge

end
-- ==== Proof.lean ====
/-
  The certificate of kernel j85246510891072/2 against its reference, over the extended reals.

  THE TWO PROGRAMS.  x has shape [1024, 1024, 1, 1] and T shape [1024, 32, 8].  With xf = x reshaped to [1024, 1024] and
  proj(n, o, k) = sum over f of xf(n, f) · T(f, o, k), both programs return x joined along axis 1 with the array
      out(b, o) = (sum over rows a of exp (−(sum over k of |proj(b, o, k) − proj(a, o, k)|))) − 1
  reshaped to [1024, 32, 1, 1].
  The reference computes proj by one matrix product against T reshaped to [1024, 256], broadcasts it against itself,
  and reduces over k and then over the first row axis.
  The kernel runs two pallas_calls.  The first multiplies xf by Tf, T with its last two axes swapped and flattened, in
  four row tiles of 256, and also writes the transposed product by a second matrix product on the same tiles.  The
  second takes the product as [1024, 8, 32] in eight row tiles of 128 and the transposed product as [8, 32, 1024] whole,
  and for each tile adds up exp (−distance) over the 1024 key rows, 128 lanes at a time.

  WHY THEY AGREE.  A format change is the identity on the extended reals; a matrix product into a zero accumulator is the
  plain sum; the transposed product is the product because multiplication commutes; the blocks of 128 lanes and the
  eight steps over k are regroupings of finite sums, which are commutative and associative with neutral zero; 0 − d is −d.
  None of these laws needs finite entries, so the precondition is never opened.

  THE PARTS.  The three frames are the generated ones (the reference's is its generated run with the result dropped).
  The idealization rewrote nothing, so `preserves` is `True`.  For `algebraic`: the kernel's run with its result named
  (ResultRun), the buffers between the segments (Boundaries), the two products (Products, ProductsValue), the pairwise body
  at an entry and its blocks (PairSpec, PairBody, PairValue), both stages as the projection and `out` (Whole, KernelSide),
  and the reference read stage by stage (RefSide).
-/
import proofs.«100939_j85246510891072_2_alg».proof.Defs
import proofs.«100939_j85246510891072_2_alg».proof.Proof.Gen.Kernel
import proofs.«100939_j85246510891072_2_alg».proof.Proof.Gen.Kernel.Skeleton
import proofs.«100939_j85246510891072_2_alg».proof.Proof.Gen.Kernel.Launch
import proofs.«100939_j85246510891072_2_alg».proof.Proof.Gen.Kernel.Points
import proofs.«100939_j85246510891072_2_alg».proof.Proof.Gen.Kernel.Frame
import proofs.«100939_j85246510891072_2_alg».proof.Proof.Gen.KernelIdeal
import proofs.«100939_j85246510891072_2_alg».proof.Proof.Gen.KernelIdeal.Skeleton
import proofs.«100939_j85246510891072_2_alg».proof.Proof.Gen.KernelIdeal.Launch
import proofs.«100939_j85246510891072_2_alg».proof.Proof.Gen.KernelIdeal.Points
import proofs.«100939_j85246510891072_2_alg».proof.Proof.Gen.KernelIdeal.Frame
import proofs.«100939_j85246510891072_2_alg».proof.Proof.Gen.ReferenceIdeal
import proofs.«100939_j85246510891072_2_alg».proof.Proof.Gen.Pre_finite_inputs
import proofs.«100939_j85246510891072_2_alg».proof.Proof.Gen.ReferenceIdeal.Run
import proofs.«100939_j85246510891072_2_alg».proof.Proof.Gen.ReferenceIdeal.Read
import proofs.«100939_j85246510891072_2_alg».proof.Proof.ResultRun
import proofs.«100939_j85246510891072_2_alg».proof.Proof.PairBody
import proofs.«100939_j85246510891072_2_alg».proof.Proof.PairValue
import proofs.«100939_j85246510891072_2_alg».proof.Proof.KernelSide
import proofs.«100939_j85246510891072_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run: the result buffer ends at x joined with the reshape of `out` of xf and T, the arguments
    as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v8)
          = Cert.KernelIdeal.KernelSide.whole (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono
    (fun r h c => ⟨(h c).1.trans (Cert.KernelIdeal.KernelSide.result m ρ
        (fun c' => Cert.KernelIdeal.PairValue.out_pairs (Cert.KernelIdeal.Gen.V3 m ρ) Cert.KernelIdeal.PairBody.body_apply c') c), (h c).2⟩)
    (Cert.KernelIdeal.Result.run (F := Ideal) m ρ)

/-- From memories agreeing on x and T both idealized programs end with the same result: x joined with the reshape of
    `out` of xf and T. -/
theorem algebraic : Cert.algebraic_KernelIdeal_ReferenceIdeal := by
  intro m ρ m' ρ' _ hagree
  refine ⟨fun c => Cert.KernelIdeal.KernelSide.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v18_eq _ _).trans (Cert.ReferenceIdeal.Bridge.result_ref _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
